-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v155)) (v1 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_v156) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S262144 : Shape := ⟨1, ![262144]⟩
abbrev S131072 : Shape := ⟨1, ![131072]⟩
abbrev S256x256 : Shape := ⟨2, ![256, 256]⟩
abbrev S128x512 : Shape := ⟨2, ![128, 512]⟩
abbrev S128 : Shape := ⟨1, ![128]⟩
abbrev S128x128 : Shape := ⟨2, ![128, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S262144 : S_.BroadcastsInDim S262144 (![] : Fin 0 → Fin S262144.rank)
  reducesTo_S262144_S_d0 : S262144.ReducesTo [0] S_
  bcast_S_S131072 : S_.BroadcastsInDim S131072 (![] : Fin 0 → Fin S131072.rank)
  reducesTo_S131072_S_d0 : S131072.ReducesTo [0] S_
  bcast_S_S256x256 : S_.BroadcastsInDim S256x256 (![] : Fin 0 → Fin S256x256.rank)
  reducesTo_S256x256_S_d0_1 : S256x256.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg22 : FVec F S128x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  main_v93

def fn_part4 {F : FTy → Type} [FloatOps F] (main_arg18 : FVec F S128x512 .f32) (main_arg19 : FVec F S128 .f32) (main_arg20 : FVec F S128 .f32) (main_arg21 : FVec F S128 .f32) (main_arg22 : FVec F S128x128 .f32) (main_v63 : IVec S_ 1) (main_v67 : IVec S_ 1) : IVec S_ 1 :=
  let main_v68 : IVec S_ 1 := andi main_v63 main_v67
  let main_v69 : FVec F S128x512 .f32 := Host.absf main_arg18
  let main_cst_26 : FVec F S_ .f32 := constant S_ .f32 0x7F800000#32
  let main_v70 : FVec F S128x512 .f32 := broadcastInDim S128x512 ![] bcast_S_S128x512 main_cst_26
  let main_v71 : IVec S128x512 1 := cmpf .olt main_v69 main_v70
  let main_c_27 : IVec S_ 1 := constantI S_ 1 1#1
  let main_v72 : IVec S_ 1 := (fun x v => Host.reduce IntOp.andi x v reducesTo_S128x512_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_v83 main_v84 main_cst_32

def fn_part3 {F : FTy → Type} [FloatOps F] (main_arg15 : FVec F S128 .f32) (main_arg16 : FVec F S128 .f32) (main_arg17 : FVec F S128 .f32) (main_arg18 : FVec F S128x512 .f32) (main_arg19 : FVec F S128 .f32) (main_arg20 : FVec F S128 .f32) (main_arg21 : FVec F S128 .f32) (main_arg22 : FVec F S128x128 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_v63 main_v67

def fn_part2 {F : FTy → Type} [FloatOps F] (main_arg11 : FVec F S128 .f32) (main_arg12 : FVec F S128 .f32) (main_arg13 : FVec F S128 .f32) (main_arg14 : FVec F S128x512 .f32) (main_arg15 : FVec F S128 .f32) (main_arg16 : FVec F S128 .f32) (main_arg17 : FVec F S128 .f32) (main_arg18 : FVec F S128x512 .f32) (main_arg19 : FVec F S128 .f32) (main_arg20 : FVec F S128 .f32) (main_arg21 : FVec F S128 .f32) (main_arg22 : FVec F S128x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x512 .f32 := Host.absf main_arg14
  let main_cst_18 : FVec F S_ .f32 := constant S_ .f32 0x7F800000#32
  let main_v50 : FVec F S128x512 .f32 := broadcastInDim S128x512 ![] bcast_S_S128x512 main_cst_18
  fn_part3 (F := F) main_arg15 main_arg16 main_arg17 main_arg18 main_arg19 main_arg20 main_arg21 main_arg22 main_v48 main_v49 main_v50

def fn_part1 {F : FTy → Type} [FloatOps F] (main_arg8 : FVec F S131072 .f32) (main_arg9 : FVec F S256x256 .f32) (main_arg10 : FVec F S128x512 .f32) (main_arg11 : FVec F S128 .f32) (main_arg12 : FVec F S128 .f32) (main_arg13 : FVec F S128 .f32) (main_arg14 : FVec F S128x512 .f32) (main_arg15 : FVec F S128 .f32) (main_arg16 : FVec F S128 .f32) (main_arg17 : FVec F S128 .f32) (main_arg18 : FVec F S128x512 .f32) (main_arg19 : FVec F S128 .f32) (main_arg20 : FVec F S128 .f32) (main_arg21 : FVec F S128 .f32) (main_arg22 : FVec F S128x128 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S131072 .f32 := Host.absf main_arg8
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S128x512 .f32 := Host.absf main_arg10
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_v33

def fn {F : FTy → Type} [FloatOps F] (main_arg0 : FVec F S8192x256 .f32) (main_arg1 : FVec F S8192x256 .f32) (main_arg2 : FVec F S4096x256 .f32) (main_arg3 : IVec S262144 32) (main_arg4 : IVec S262144 32) (main_arg5 : FVec F S262144 .f32) (main_arg6 : IVec S131072 32) (main_arg7 : IVec S131072 32) (main_arg8 : FVec F S131072 .f32) (main_arg9 : FVec F S256x256 .f32) (main_arg10 : FVec F S128x512 .f32) (main_arg11 : FVec F S128 .f32) (main_arg12 : FVec F S128 .f32) (main_arg13 : FVec F S128 .f32) (main_arg14 : FVec F S128x512 .f32) (main_arg15 : FVec F S128 .f32) (main_arg16 : FVec F S128 .f32) (main_arg17 : FVec F S128 .f32) (main_arg18 : FVec F S128x512 .f32) (main_arg19 : FVec F S128 .f32) (main_arg20 : FVec F S128 .f32) (main_arg21 : FVec F S128 .f32) (main_arg22 : FVec F S128x128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S262144 .f32 := Host.absf main_arg5
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_v13 main_v16
-- ==== Kernel.lean ====
abbrev S8192x256 : Shape := ⟨2, ![8192, 256]⟩
abbrev S4096x256 : Shape := ⟨2, ![4096, 256]⟩
abbrev S262144 : Shape := ⟨1, ![262144]⟩
abbrev S131072 : Shape := ⟨1, ![131072]⟩
abbrev S256x256 : Shape := ⟨2, ![256, 256]⟩
abbrev S128x512 : Shape := ⟨2, ![128, 512]⟩
abbrev S128 : Shape := ⟨1, ![128]⟩
abbrev S128x128 : Shape := ⟨2, ![128, 128]⟩
abbrev S1024x256 : Shape := ⟨2, ![1024, 256]⟩
abbrev S262144x1 : Shape := ⟨2, ![262144, 1]⟩
abbrev S_ : Shape := ⟨0, ![]⟩
abbrev S262144x256 : Shape := ⟨2, ![262144, 256]⟩
abbrev S131072x1 : Shape := ⟨2, ![131072, 1]⟩
abbrev S131072x256 : Shape := ⟨2, ![131072, 256]⟩
abbrev S8192x512 : Shape := ⟨2, ![8192, 512]⟩
abbrev S512x128 : Shape := ⟨2, ![512, 128]⟩
abbrev S8192x128 : Shape := ⟨2, ![8192, 128]⟩
abbrev S1x128 : Shape := ⟨2, ![1, 128]⟩
abbrev S4096x512 : Shape := ⟨2, ![4096, 512]⟩
abbrev S4096x128 : Shape := ⟨2, ![4096, 128]⟩
abbrev S8192x8192 : Shape := ⟨2, ![8192, 8192]⟩
abbrev S1024x128 : Shape := ⟨2, ![1024, 128]⟩
abbrev S2048x128 : Shape := ⟨2, ![2048, 128]⟩
abbrev S1024x2048 : Shape := ⟨2, ![1024, 2048]⟩
abbrev S128x2048 : Shape := ⟨2, ![128, 2048]⟩
abbrev S8192x4096 : Shape := ⟨2, ![8192, 4096]⟩

abbrev nBuf : Space → Nat
  | .hbm => 219
  | .vmem => 29
  | .smem => 0
  | _ => 0

abbrev hbmTy0_0 (i : Nat) : BufTy := match i % 128 with
  | 0 => ⟨S8192x256, .f32⟩
  | 1 => ⟨S8192x256, .f32⟩
  | 2 => ⟨S4096x256, .f32⟩
  | 3 => ⟨S262144, .i32⟩
  | 4 => ⟨S262144, .i32⟩
  | 5 => ⟨S262144, .f32⟩
  | 6 => ⟨S131072, .i32⟩
  | 7 => ⟨S131072, .i32⟩
  | 8 => ⟨S131072, .f32⟩
  | 9 => ⟨S256x256, .f32⟩
  | 10 => ⟨S128x512, .f32⟩
  | 11 => ⟨S128, .f32⟩
  | 12 => ⟨S128, .f32⟩
  | 13 => ⟨S128, .f32⟩
  | 14 => ⟨S128x512, .f32⟩
  | 15 => ⟨S128, .f32⟩
  | 16 => ⟨S128, .f32⟩
  | 17 => ⟨S128, .f32⟩
  | 18 => ⟨S128x512, .f32⟩
  | 19 => ⟨S128, .f32⟩
  | 20 => ⟨S128, .f32⟩
  | 21 => ⟨S128, .f32⟩
  | 22 => ⟨S128x128, .f32⟩
  | 23 => ⟨S8192x256, .f32⟩
  | 24 => ⟨S8192x256, .f32⟩
  | 25 => ⟨S4096x256, .f32⟩
  | 26 => ⟨S262144x1, .f32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S262144x256, .f32⟩
  | 36 => ⟨S262144x256, .f32⟩
  | 37 => ⟨S262144x256, .f32⟩
  | 38 => ⟨S_, .f32⟩
  | 39 => ⟨S8192x256, .f32⟩
  | 40 => ⟨S262144x1, .i32⟩
  | 41 => ⟨S8192x256, .f32⟩
  | 42 => ⟨S_, .f32⟩
  | 43 => ⟨S8192x256, .f32⟩
  | 44 => ⟨S8192x256, .f32⟩
  | 45 => ⟨S262144x1, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x256, .f32⟩
  | 55 => ⟨S262144x256, .f32⟩
  | 56 => ⟨S262144x256, .f32⟩
  | 57 => ⟨S_, .f32⟩
  | 58 => ⟨S8192x256, .f32⟩
  | 59 => ⟨S262144x1, .i32⟩
  | 60 => ⟨S8192x256, .f32⟩
  | 61 => ⟨S131072x1, .f32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x256, .f32⟩
  | 71 => ⟨S131072x256, .f32⟩
  | 72 => ⟨S131072x256, .f32⟩
  | 73 => ⟨S_, .f32⟩
  | 74 => ⟨S8192x256, .f32⟩
  | 75 => ⟨S131072x1, .i32⟩
  | 76 => ⟨S8192x256, .f32⟩
  | 77 => ⟨S8192x256, .f32⟩
  | 78 => ⟨S_, .f32⟩
  | 79 => ⟨S8192x256, .f32⟩
  | 80 => ⟨S8192x256, .f32⟩
  | 81 => ⟨S131072x1, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x256, .f32⟩
  | 91 => ⟨S131072x256, .f32⟩
  | 92 => ⟨S131072x256, .f32⟩
  | 93 => ⟨S_, .f32⟩
  | 94 => ⟨S4096x256, .f32⟩
  | 95 => ⟨S131072x1, .i32⟩
  | 96 => ⟨S4096x256, .f32⟩
  | 97 => ⟨S_, .f32⟩
  | 98 => ⟨S4096x256, .f32⟩
  | 99 => ⟨S4096x256, .f32⟩
  | 100 => ⟨S8192x512, .f32⟩
  | 101 => ⟨S512x128, .f32⟩
  | 102 => ⟨S8192x128, .f32⟩
  | 103 => ⟨S1x128, .f32⟩
  | 104 => ⟨S8192x128, .f32⟩
  | 105 => ⟨S8192x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S8192x128, .f32⟩
  | 113 => ⟨S8192x128, .f32⟩
  | 114 => ⟨S8192x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S8192x128, .f32⟩
  | 122 => ⟨S8192x128, .f32⟩
  | 123 => ⟨S_, .f32⟩
  | 124 => ⟨S128, .f32⟩
  | 125 => ⟨S128, .f32⟩
  | 126 => ⟨S128, .f32⟩
  | 127 => ⟨S1x128, .f32⟩
  | _ => ⟨S8192x256, .f32⟩

abbrev hbmTy0_1 (i : Nat) : BufTy := match i % 128 with
  | 0 => ⟨S8192x128, .f32⟩
  | 1 => ⟨S8192x128, .f32⟩
  | 2 => ⟨S1x128, .f32⟩
  | 3 => ⟨S8192x128, .f32⟩
  | 4 => ⟨S8192x128, .f32⟩
  | 5 => ⟨S1x128, .f32⟩
  | 6 => ⟨S8192x128, .f32⟩
  | 7 => ⟨S8192x128, .f32⟩
  | 8 => ⟨S_, .f32⟩
  | 9 => ⟨S8192x128, .f32⟩
  | 10 => ⟨S8192x128, .f32⟩
  | 11 => ⟨S8192x512, .f32⟩
  | 12 => ⟨S512x128, .f32⟩
  | 13 => ⟨S8192x128, .f32⟩
  | 14 => ⟨S1x128, .f32⟩
  | 15 => ⟨S8192x128, .f32⟩
  | 16 => ⟨S8192x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S8192x128, .f32⟩
  | 24 => ⟨S8192x128, .f32⟩
  | 25 => ⟨S8192x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S8192x128, .f32⟩
  | 33 => ⟨S8192x128, .f32⟩
  | 34 => ⟨S_, .f32⟩
  | 35 => ⟨S128, .f32⟩
  | 36 => ⟨S128, .f32⟩
  | 37 => ⟨S128, .f32⟩
  | 38 => ⟨S1x128, .f32⟩
  | 39 => ⟨S8192x128, .f32⟩
  | 40 => ⟨S8192x128, .f32⟩
  | 41 => ⟨S1x128, .f32⟩
  | 42 => ⟨S8192x128, .f32⟩
  | 43 => ⟨S8192x128, .f32⟩
  | 44 => ⟨S1x128, .f32⟩
  | 45 => ⟨S8192x128, .f32⟩
  | 46 => ⟨S8192x128, .f32⟩
  | 47 => ⟨S_, .f32⟩
  | 48 => ⟨S8192x128, .f32⟩
  | 49 => ⟨S8192x128, .f32⟩
  | 50 => ⟨S4096x512, .f32⟩
  | 51 => ⟨S512x128, .f32⟩
  | 52 => ⟨S4096x128, .f32⟩
  | 53 => ⟨S1x128, .f32⟩
  | 54 => ⟨S4096x128, .f32⟩
  | 55 => ⟨S4096x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S4096x128, .f32⟩
  | 63 => ⟨S4096x128, .f32⟩
  | 64 => ⟨S4096x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S4096x128, .f32⟩
  | 72 => ⟨S4096x128, .f32⟩
  | 73 => ⟨S_, .f32⟩
  | 74 => ⟨S128, .f32⟩
  | 75 => ⟨S128, .f32⟩
  | 76 => ⟨S128, .f32⟩
  | 77 => ⟨S1x128, .f32⟩
  | 78 => ⟨S4096x128, .f32⟩
  | 79 => ⟨S4096x128, .f32⟩
  | 80 => ⟨S1x128, .f32⟩
  | 81 => ⟨S4096x128, .f32⟩
  | 82 => ⟨S4096x128, .f32⟩
  | 83 => ⟨S1x128, .f32⟩
  | 84 => ⟨S4096x128, .f32⟩
  | 85 => ⟨S4096x128, .f32⟩
  | 86 => ⟨S_, .f32⟩
  | 87 => ⟨S4096x128, .f32⟩
  | 88 => ⟨S4096x128, .f32⟩
  | 89 => ⟨S8192x8192, .f32⟩
  | 90 => ⟨S8192x4096, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x256, .f32⟩
  | .local _ .vmem, ⟨13, _⟩ => ⟨S1024x256, .f32⟩
  | .local _ .vmem, ⟨14, _⟩ => ⟨S1024x256, .f32⟩
  | .local _ .vmem, ⟨15, _⟩ => ⟨S1024x128, .f32⟩
  | .local _ .vmem, ⟨16, _⟩ => ⟨S1024x128, .f32⟩
  | .local _ .vmem, ⟨17, _⟩ => ⟨S128x128, .f32⟩
  | .local _ .vmem, ⟨18, _⟩ => ⟨S2048x128, .f32⟩
  | .local _ .vmem, ⟨19, _⟩ => ⟨S2048x128, .f32⟩
  | .local _ .vmem, ⟨20, _⟩ => ⟨S1024x2048, .f32⟩
  | .local _ .vmem, ⟨21, _⟩ => ⟨S1024x2048, .f32⟩
  | .local _ .vmem, ⟨22, _⟩ => ⟨S1024x128, .f32⟩
  | .local _ .vmem, ⟨23, _⟩ => ⟨S1024x128, .f32⟩
  | .local _ .vmem, ⟨24, _⟩ => ⟨S128x128, .f32⟩
  | .local _ .vmem, ⟨25, _⟩ => ⟨S2048x128, .f32⟩
  | .local _ .vmem, ⟨26, _⟩ => ⟨S2048x128, .f32⟩
  | .local _ .vmem, ⟨27, _⟩ => ⟨S1024x2048, .f32⟩
  | .local _ .vmem, ⟨28, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call0_cst : Ref sig .tc := ⟨.hbm, 42, rfl⟩
abbrev main_call0_v0 : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_c_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call1_cst : Ref sig .tc := ⟨.hbm, 78, rfl⟩
abbrev main_call1_v0 : Ref sig .tc := ⟨.hbm, 79, rfl⟩
abbrev main_v44 : Ref sig .tc := ⟨.hbm, 80, rfl⟩
abbrev main_v45 : Ref sig .tc := ⟨.hbm, 81, rfl⟩
abbrev main_c_7 : Ref sig .tc := ⟨.hbm, 82, rfl⟩
abbrev main_v46 : Ref sig .tc := ⟨.hbm, 83, rfl⟩
abbrev main_v47 : Ref sig .tc := ⟨.hbm, 84, rfl⟩
abbrev main_c_8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call2_cst : Ref sig .tc := ⟨.hbm, 97, rfl⟩
abbrev main_call2_v0 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_10 : Ref sig .tc := ⟨.hbm, 106, rfl⟩
abbrev main_v65 : Ref sig .tc := ⟨.hbm, 107, rfl⟩
abbrev main_cst_11 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_12 : Ref sig .tc := ⟨.hbm, 115, rfl⟩
abbrev main_v72 : Ref sig .tc := ⟨.hbm, 116, rfl⟩
abbrev main_cst_13 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call3_cst : Ref sig .tc := ⟨.hbm, 136, rfl⟩
abbrev main_call3_v0 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_15 : Ref sig .tc := ⟨.hbm, 145, rfl⟩
abbrev main_v97 : Ref sig .tc := ⟨.hbm, 146, rfl⟩
abbrev main_cst_16 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_17 : Ref sig .tc := ⟨.hbm, 154, rfl⟩
abbrev main_v104 : Ref sig .tc := ⟨.hbm, 155, rfl⟩
abbrev main_cst_18 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_19 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_call4_cst : Ref sig .tc := ⟨.hbm, 175, rfl⟩
abbrev main_call4_v0 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_20 : Ref sig .tc := ⟨.hbm, 184, rfl⟩
abbrev main_v129 : Ref sig .tc := ⟨.hbm, 185, rfl⟩
abbrev main_cst_21 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_22 : Ref sig .tc := ⟨.hbm, 193, rfl⟩
abbrev main_v136 : Ref sig .tc := ⟨.hbm, 194, rfl⟩
abbrev main_cst_23 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_24 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_call5_cst : Ref sig .tc := ⟨.hbm, 214, rfl⟩
abbrev main_call5_v0 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S4096x256 : S_.BroadcastsInDim S4096x256 (![] : Fin 0 → Fin S4096x256.rank)
  concatenates_S8192x256_S8192x256_S8192x512_d1 : Shape.Concatenates [S8192x256, S8192x256] S8192x512 1
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S128_d0 : S8192x128.ReducesTo [0] S128
  h_S_ : 0 < S_.numel
  bcast_S_S128 : S_.BroadcastsInDim S128 (![] : Fin 0 → Fin S128.rank)
  bcast_S_S8192x128 : S_.BroadcastsInDim S8192x128 (![] : Fin 0 → Fin S8192x128.rank)
  concatenates_S4096x256_S4096x256_S4096x512_d1 : Shape.Concatenates [S4096x256, S4096x256] S4096x512 1
  bcast_S1x128_S4096x128_0_1 : S1x128.BroadcastsInDim S4096x128 (![0, 1] : Fin 2 → Fin S4096x128.rank)
  reducesTo_S4096x128_S128_d0 : S4096x128.ReducesTo [0] S128
  bcast_S_S4096x128 : S_.BroadcastsInDim S4096x128 (![] : Fin 0 → Fin S4096x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  inb_S1024x2048_S1024x2048_0_0 : ∀ a, (![0, 0] : Fin 2 → Nat) a + S1024x2048.size a ≤ S1024x2048.size a
  h_S1024x2048 : 0 < S1024x2048.numel
  dot_S1024x256_S256x256_S1024x256_1_0_0_1_n_n_wf : DotDims.WF S1024x256 S256x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  gather_S4096x256_S131072x1_S131072x256_1_0_n_n_0_1_1256_wf : GatherDims.WF S4096x256 S131072x1 S131072x256 [1] [0] [] [0] [] 1 ![1, 256]
  scatter_S8192x256_S131072x1_S131072x256_1_0_0_1_wf : ScatterDims.WF S8192x256 S131072x1 S131072x256 [1] [0] [0] 1
  gather_S8192x256_S131072x1_S131072x256_1_0_n_n_0_1_1256_wf : GatherDims.WF S8192x256 S131072x1 S131072x256 [1] [0] [] [0] [] 1 ![1, 256]
  scatter_S4096x256_S131072x1_S131072x256_1_0_0_1_wf : ScatterDims.WF S4096x256 S131072x1 S131072x256 [1] [0] [0] 1
  dot_S8192x512_S512x128_S8192x128_1_0_0_1_n_n_wf : DotDims.WF S8192x512 S512x128 S8192x128 [1] [0] [0] [1] [] []
  dot_S4096x512_S512x128_S4096x128_1_0_0_1_n_n_wf : DotDims.WF S4096x512 S512x128 S4096x128 [1] [0] [0] [1] [] []
  dot_S1024x128_S128x128_S1024x128_1_0_0_1_n_n_wf : DotDims.WF S1024x128 S128x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S4096x256.size a
  hwx2_2 : ∀ i : grid2.Coords, EltTy.bits .f32 = 32 ∨ (Rect.block (s := S4096x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S8192x128.size a
  hwx3_2 : ∀ i : grid3.Coords, EltTy.bits .f32 = 32 ∨ (Rect.block (s := S8192x128) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x2048.size a ≤ S8192x8192.size a
  hwx3_3 : ∀ i : grid3.Coords, EltTy.bits .f32 = 32 ∨ (Rect.block (s := S8192x8192) S1024x2048.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S4096x128.size a
  hwx4_2 : ∀ i : grid4.Coords, EltTy.bits .f32 = 32 ∨ (Rect.block (s := S4096x128) S2048x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x2048.size a ≤ S8192x4096.size a
  hwx4_3 : ∀ i : grid4.Coords, EltTy.bits .f32 = 32 ∨ (Rect.block (s := S8192x4096) S1024x2048.size (cc4_transform_3 i) (hinb4_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v90) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg22) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v122) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v155) S1024x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v122) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg22) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v154) S2048x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v156) S1024x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S262144 : Shape := ⟨1, ![262144]⟩
abbrev S131072 : Shape := ⟨1, ![131072]⟩
abbrev S256x256 : Shape := ⟨2, ![256, 256]⟩
abbrev S128x512 : Shape := ⟨2, ![128, 512]⟩
abbrev S128 : Shape := ⟨1, ![128]⟩
abbrev S128x128 : Shape := ⟨2, ![128, 128]⟩
abbrev S262144x1 : Shape := ⟨2, ![262144, 1]⟩
abbrev S_ : Shape := ⟨0, ![]⟩
abbrev S262144x256 : Shape := ⟨2, ![262144, 256]⟩
abbrev S131072x1 : Shape := ⟨2, ![131072, 1]⟩
abbrev S131072x256 : Shape := ⟨2, ![131072, 256]⟩
abbrev S8192x512 : Shape := ⟨2, ![8192, 512]⟩
abbrev S512x128 : Shape := ⟨2, ![512, 128]⟩
abbrev S8192x128 : Shape := ⟨2, ![8192, 128]⟩
abbrev S1x128 : Shape := ⟨2, ![1, 128]⟩
abbrev S4096x512 : Shape := ⟨2, ![4096, 512]⟩
abbrev S4096x128 : Shape := ⟨2, ![4096, 128]⟩
abbrev S128x8192 : Shape := ⟨2, ![128, 8192]⟩
abbrev S8192x8192 : Shape := ⟨2, ![8192, 8192]⟩
abbrev S128x4096 : Shape := ⟨2, ![128, 4096]⟩
abbrev S8192x4096 : Shape := ⟨2, ![8192, 4096]⟩

abbrev nBuf : Space → Nat
  | .hbm => 224
  | .vmem => 0
  | .smem => 0
  | _ => 0

abbrev hbmTy0_0 (i : Nat) : BufTy := match i % 128 with
  | 0 => ⟨S8192x256, .f32⟩
  | 1 => ⟨S8192x256, .f32⟩
  | 2 => ⟨S4096x256, .f32⟩
  | 3 => ⟨S262144, .i32⟩
  | 4 => ⟨S262144, .i32⟩
  | 5 => ⟨S262144, .f32⟩
  | 6 => ⟨S131072, .i32⟩
  | 7 => ⟨S131072, .i32⟩
  | 8 => ⟨S131072, .f32⟩
  | 9 => ⟨S256x256, .f32⟩
  | 10 => ⟨S128x512, .f32⟩
  | 11 => ⟨S128, .f32⟩
  | 12 => ⟨S128, .f32⟩
  | 13 => ⟨S128, .f32⟩
  | 14 => ⟨S128x512, .f32⟩
  | 15 => ⟨S128, .f32⟩
  | 16 => ⟨S128, .f32⟩
  | 17 => ⟨S128, .f32⟩
  | 18 => ⟨S128x512, .f32⟩
  | 19 => ⟨S128, .f32⟩
  | 20 => ⟨S128, .f32⟩
  | 21 => ⟨S128, .f32⟩
  | 22 => ⟨S128x128, .f32⟩
  | 23 => ⟨S8192x256, .f32⟩
  | 24 => ⟨S262144x1, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S262144x256, .f32⟩
  | 34 => ⟨S262144x256, .f32⟩
  | 35 => ⟨S262144x256, .f32⟩
  | 36 => ⟨S_, .f32⟩
  | 37 => ⟨S8192x256, .f32⟩
  | 38 => ⟨S262144x1, .i32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S262144x1, .f32⟩
  | 45 => ⟨S_, .i32⟩
  | 46 => ⟨S262144, .i32⟩
  | 47 => ⟨S262144, .i1⟩
  | 48 => ⟨S_, .i32⟩
  | 49 => ⟨S262144, .i32⟩
  | 50 => ⟨S262144, .i32⟩
  | 51 => ⟨S262144, .i32⟩
  | 52 => ⟨S262144x1, .i32⟩
  | 53 => ⟨S262144x256, .f32⟩
  | 54 => ⟨S262144x256, .f32⟩
  | 55 => ⟨S262144x256, .f32⟩
  | 56 => ⟨S_, .f32⟩
  | 57 => ⟨S8192x256, .f32⟩
  | 58 => ⟨S262144x1, .i32⟩
  | 59 => ⟨S8192x256, .f32⟩
  | 60 => ⟨S4096x256, .f32⟩
  | 61 => ⟨S131072x1, .f32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x256, .f32⟩
  | 71 => ⟨S131072x256, .f32⟩
  | 72 => ⟨S131072x256, .f32⟩
  | 73 => ⟨S_, .f32⟩
  | 74 => ⟨S8192x256, .f32⟩
  | 75 => ⟨S131072x1, .i32⟩
  | 76 => ⟨S8192x256, .f32⟩
  | 77 => ⟨S8192x256, .f32⟩
  | 78 => ⟨S_, .f32⟩
  | 79 => ⟨S8192x256, .f32⟩
  | 80 => ⟨S8192x256, .f32⟩
  | 81 => ⟨S8192x256, .f32⟩
  | 82 => ⟨S131072x1, .f32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S131072x1, .i32⟩
  | 91 => ⟨S131072x256, .f32⟩
  | 92 => ⟨S131072x256, .f32⟩
  | 93 => ⟨S131072x256, .f32⟩
  | 94 => ⟨S_, .f32⟩
  | 95 => ⟨S4096x256, .f32⟩
  | 96 => ⟨S131072x1, .i32⟩
  | 97 => ⟨S4096x256, .f32⟩
  | 98 => ⟨S_, .f32⟩
  | 99 => ⟨S4096x256, .f32⟩
  | 100 => ⟨S4096x256, .f32⟩
  | 101 => ⟨S8192x512, .f32⟩
  | 102 => ⟨S512x128, .f32⟩
  | 103 => ⟨S8192x128, .f32⟩
  | 104 => ⟨S1x128, .f32⟩
  | 105 => ⟨S8192x128, .f32⟩
  | 106 => ⟨S8192x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S8192x128, .f32⟩
  | 114 => ⟨S8192x128, .f32⟩
  | 115 => ⟨S8192x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S8192x128, .f32⟩
  | 123 => ⟨S8192x128, .f32⟩
  | 124 => ⟨S_, .f32⟩
  | 125 => ⟨S128, .f32⟩
  | 126 => ⟨S128, .f32⟩
  | 127 => ⟨S128, .f32⟩
  | _ => ⟨S8192x256, .f32⟩

abbrev hbmTy0_1 (i : Nat) : BufTy := match i % 128 with
  | 0 => ⟨S1x128, .f32⟩
  | 1 => ⟨S8192x128, .f32⟩
  | 2 => ⟨S8192x128, .f32⟩
  | 3 => ⟨S1x128, .f32⟩
  | 4 => ⟨S8192x128, .f32⟩
  | 5 => ⟨S8192x128, .f32⟩
  | 6 => ⟨S1x128, .f32⟩
  | 7 => ⟨S8192x128, .f32⟩
  | 8 => ⟨S8192x128, .f32⟩
  | 9 => ⟨S_, .f32⟩
  | 10 => ⟨S8192x128, .f32⟩
  | 11 => ⟨S8192x128, .f32⟩
  | 12 => ⟨S8192x512, .f32⟩
  | 13 => ⟨S512x128, .f32⟩
  | 14 => ⟨S8192x128, .f32⟩
  | 15 => ⟨S1x128, .f32⟩
  | 16 => ⟨S8192x128, .f32⟩
  | 17 => ⟨S8192x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S8192x128, .f32⟩
  | 25 => ⟨S8192x128, .f32⟩
  | 26 => ⟨S8192x128, .f32⟩
  | 27 => ⟨S_, .f32⟩
  | 28 => ⟨S128, .f32⟩
  | 29 => ⟨S_, .f32⟩
  | 30 => ⟨S128, .f32⟩
  | 31 => ⟨S128, .f32⟩
  | 32 => ⟨S1x128, .f32⟩
  | 33 => ⟨S8192x128, .f32⟩
  | 34 => ⟨S8192x128, .f32⟩
  | 35 => ⟨S_, .f32⟩
  | 36 => ⟨S128, .f32⟩
  | 37 => ⟨S128, .f32⟩
  | 38 => ⟨S128, .f32⟩
  | 39 => ⟨S1x128, .f32⟩
  | 40 => ⟨S8192x128, .f32⟩
  | 41 => ⟨S8192x128, .f32⟩
  | 42 => ⟨S1x128, .f32⟩
  | 43 => ⟨S8192x128, .f32⟩
  | 44 => ⟨S8192x128, .f32⟩
  | 45 => ⟨S1x128, .f32⟩
  | 46 => ⟨S8192x128, .f32⟩
  | 47 => ⟨S8192x128, .f32⟩
  | 48 => ⟨S_, .f32⟩
  | 49 => ⟨S8192x128, .f32⟩
  | 50 => ⟨S8192x128, .f32⟩
  | 51 => ⟨S4096x512, .f32⟩
  | 52 => ⟨S512x128, .f32⟩
  | 53 => ⟨S4096x128, .f32⟩
  | 54 => ⟨S1x128, .f32⟩
  | 55 => ⟨S4096x128, .f32⟩
  | 56 => ⟨S4096x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S4096x128, .f32⟩
  | 64 => ⟨S4096x128, .f32⟩
  | 65 => ⟨S4096x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S4096x128, .f32⟩
  | 73 => ⟨S4096x128, .f32⟩
  | 74 => ⟨S_, .f32⟩
  | 75 => ⟨S128, .f32⟩
  | 76 => ⟨S128, .f32⟩
  | 77 => ⟨S128, .f32⟩
  | 78 => ⟨S1x128, .f32⟩
  | 79 => ⟨S4096x128, .f32⟩
  | 80 => ⟨S4096x128, .f32⟩
  | 81 => ⟨S1x128, .f32⟩
  | 82 => ⟨S4096x128, .f32⟩
  | 83 => ⟨S4096x128, .f32⟩
  | 84 => ⟨S1x128, .f32⟩
  | 85 => ⟨S4096x128, .f32⟩
  | 86 => ⟨S4096x128, .f32⟩
  | 87 => ⟨S_, .f32⟩
  | 88 => ⟨S4096x128, .f32⟩
  | 89 => ⟨S4096x128, .f32⟩
  | 90 => ⟨S8192x128, .f32⟩
  | 91 => ⟨S128x8192, .f32⟩
  | 92 => ⟨S8192x8192, .f32⟩
  | 93 => ⟨S8192x128, .f32⟩
  | 94 => ⟨S128x4096, .f32⟩
  | 95 => ⟨S8192x4096, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call0_cst : Ref sig .tc := ⟨.hbm, 40, rfl⟩
abbrev main_call0_v0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call1_cst : Ref sig .tc := ⟨.hbm, 78, rfl⟩
abbrev main_call1_v0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_7 : Ref sig .tc := ⟨.hbm, 83, rfl⟩
abbrev main_v47 : Ref sig .tc := ⟨.hbm, 84, rfl⟩
abbrev main_v48 : Ref sig .tc := ⟨.hbm, 85, rfl⟩
abbrev main_c_8 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call2_cst : Ref sig .tc := ⟨.hbm, 98, rfl⟩
abbrev main_call2_v0 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_10 : Ref sig .tc := ⟨.hbm, 107, rfl⟩
abbrev main_v66 : Ref sig .tc := ⟨.hbm, 108, rfl⟩
abbrev main_cst_11 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_12 : Ref sig .tc := ⟨.hbm, 116, rfl⟩
abbrev main_v73 : Ref sig .tc := ⟨.hbm, 117, rfl⟩
abbrev main_cst_13 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_14 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_call3_cst : Ref sig .tc := ⟨.hbm, 137, rfl⟩
abbrev main_call3_v0 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_15 : Ref sig .tc := ⟨.hbm, 146, rfl⟩
abbrev main_v98 : Ref sig .tc := ⟨.hbm, 147, rfl⟩
abbrev main_cst_16 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_17 : Ref sig .tc := ⟨.hbm, 155, rfl⟩
abbrev main_v105 : Ref sig .tc := ⟨.hbm, 156, rfl⟩
abbrev main_cst_18 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_19 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_call4_cst : Ref sig .tc := ⟨.hbm, 176, rfl⟩
abbrev main_call4_v0 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_20 : Ref sig .tc := ⟨.hbm, 185, rfl⟩
abbrev main_v130 : Ref sig .tc := ⟨.hbm, 186, rfl⟩
abbrev main_cst_21 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_22 : Ref sig .tc := ⟨.hbm, 194, rfl⟩
abbrev main_v137 : Ref sig .tc := ⟨.hbm, 195, rfl⟩
abbrev main_cst_23 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_24 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_call5_cst : Ref sig .tc := ⟨.hbm, 215, rfl⟩
abbrev main_call5_v0 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S4096x256 : S_.BroadcastsInDim S4096x256 (![] : Fin 0 → Fin S4096x256.rank)
  concatenates_S8192x256_S8192x256_S8192x512_d1 : Shape.Concatenates [S8192x256, S8192x256] S8192x512 1
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S128_d0 : S8192x128.ReducesTo [0] S128
  h_S_ : 0 < S_.numel
  bcast_S_S128 : S_.BroadcastsInDim S128 (![] : Fin 0 → Fin S128.rank)
  bcast_S_S8192x128 : S_.BroadcastsInDim S8192x128 (![] : Fin 0 → Fin S8192x128.rank)
  concatenates_S4096x256_S4096x256_S4096x512_d1 : Shape.Concatenates [S4096x256, S4096x256] S4096x512 1
  bcast_S1x128_S4096x128_0_1 : S1x128.BroadcastsInDim S4096x128 (![0, 1] : Fin 2 → Fin S4096x128.rank)
  reducesTo_S4096x128_S128_d0 : S4096x128.ReducesTo [0] S128
  bcast_S_S4096x128 : S_.BroadcastsInDim S4096x128 (![] : Fin 0 → Fin S4096x128.rank)
  transposes_S8192x128_S128x8192_1_0 : S8192x128.Transposes [1, 0] S128x8192
  transposes_S4096x128_S128x4096_1_0 : S4096x128.Transposes [1, 0] S128x4096
  dot_S8192x256_S256x256_S8192x256_1_0_0_1_n_n_wf : DotDims.WF S8192x256 S256x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S4096x256_S256x256_S4096x256_1_0_0_1_n_n_wf : DotDims.WF S4096x256 S256x256 S4096x256 [1] [0] [0] [1] [] []
  gather_S4096x256_S131072x1_S131072x256_1_0_n_n_0_1_1256_wf : GatherDims.WF S4096x256 S131072x1 S131072x256 [1] [0] [] [0] [] 1 ![1, 256]
  scatter_S8192x256_S131072x1_S131072x256_1_0_0_1_wf : ScatterDims.WF S8192x256 S131072x1 S131072x256 [1] [0] [0] 1
  gather_S8192x256_S131072x1_S131072x256_1_0_n_n_0_1_1256_wf : GatherDims.WF S8192x256 S131072x1 S131072x256 [1] [0] [] [0] [] 1 ![1, 256]
  scatter_S4096x256_S131072x1_S131072x256_1_0_0_1_wf : ScatterDims.WF S4096x256 S131072x1 S131072x256 [1] [0] [0] 1
  dot_S8192x512_S512x128_S8192x128_1_0_0_1_n_n_wf : DotDims.WF S8192x512 S512x128 S8192x128 [1] [0] [0] [1] [] []
  dot_S4096x512_S512x128_S4096x128_1_0_0_1_n_n_wf : DotDims.WF S4096x512 S512x128 S4096x128 [1] [0] [0] [1] [] []
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []
  dot_S8192x128_S128x4096_S8192x4096_1_0_0_1_n_n_wf : DotDims.WF S8192x128 S128x4096 S8192x4096 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x128_S128x4096_S8192x4096_1_0_0_1_n_n : DotDims S8192x128 S128x4096 S8192x4096 where
  lhsContracting := [1]
  rhsContracting := [0]
  lhsNonContracting := [0]
  rhsNonContracting := [1]
  lhsBatch := []
  rhsBatch := []
  wf := dot_S8192x128_S128x4096_S8192x4096_1_0_0_1_n_n_wf

class Facts : Prop extends Facts₀ where

variable [Facts]
-- ==== Proof.KernelRun.lean ====
/-
  The idealized kernel program's run with every buffer named.

  @main is three projection launches, a stretch of host operations, and two score launches.  Every weakly fair
  execution terminates, nothing faulting, and every buffer that lives for the whole program ends at the contents
  obtained by folding the segments over the launch memory: a launch leaves its arrays at what its write-backs
  leave and everything else in place, a host stretch rewrites the buffers its operations write.
-/
import proofs.«135166_j35519379538608_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c b hb)

end Cert.KernelIdeal.KernelRun

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibDenseLayer.lean ====
/-
  A dense layer with a leaky rectifier in front, over the extended reals:
      out (i, j) = (∑ k, φ (agg (i, k) + b (0, k)) · w (k, j)) + b' (0, j),
  where φ v is v for v above zero and slope · v otherwise.  Two spellings of φ occur: one selects v where v > 0, the
  other where v ≥ 0; they agree because slope · 0 = 0.  Row i of the result reads row i of `agg` only.
-/
import proofs.«135166_j35519379538608_1_alg».proof.Proof.LibPlainDot
import Idealize.ShloMosaic.Lib.ValueLayout
import Idealize.ShloMosaic.Lib.Pipeline.Value

noncomputable section

namespace Cert.Lib.DenseLayer

open Idealize.ShloMosaic Idealize.ShloMosaic.ValueIdx Cert.Lib.PlainDot

/-- The leaky rectifier that keeps `v` where `v > 0`. -/
def lreluGt (s v : EReal) : EReal := Scalar.select (Ideal.cmp .ogt v 0) v (s * v)
/-- The leaky rectifier that keeps `v` where `v ≥ 0`. -/
def lreluGe (s v : EReal) : EReal := Scalar.select (Ideal.cmp .oge v 0) v (s * v)

/-- The two rectifiers are one function: they differ only in which branch is taken at `v = 0`, where both give `0`. -/
theorem lreluGt_eq_lreluGe (s v : EReal) : lreluGt s v = lreluGe s v := by
  unfold lreluGt lreluGe Ideal.cmp
  rcases lt_trichotomy (0 : EReal) v with h | h | h
  · have h1 : decide (0 < v) = true := decide_eq_true h
    have h2 : decide (0 ≤ v) = true := decide_eq_true h.le
    simp only [h1, h2]
  · subst h
    have h1 : decide ((0 : EReal) < 0) = false := decide_eq_false (lt_irrefl _)
    have h2 : decide ((0 : EReal) ≤ 0) = true := decide_eq_true le_rfl
    simp only [h1, h2, mul_zero]
    show Scalar.select 0#1 (0 : EReal) 0 = Scalar.select 1#1 (0 : EReal) 0
    rw [select_zero, select_one]
  · have h1 : decide (0 < v) = false := decide_eq_false (not_lt.mpr h.le)
    have h2 : decide (0 ≤ v) = false := decide_eq_false (not_le.mpr h)
    simp only [h1, h2]

/-- Bias added along the rows, then the rectifier (the `>` spelling). -/
def actGt {M D : Nat} (s : EReal) (agg : (⟨2, ![M, D]⟩ : Shape).Idx → EReal) (b : (⟨2, ![1, D]⟩ : Shape).Idx → EReal) :
    (⟨2, ![M, D]⟩ : Shape).Idx → EReal :=
  fun i => lreluGt s (agg i + b (ix2 (0 : Fin 1) (i 1)))

/-- The layer: activation, product with the weights, bias along the rows. -/
def layer {M D N : Nat} (s : EReal) (agg : (⟨2, ![M, D]⟩ : Shape).Idx → EReal) (b : (⟨2, ![1, D]⟩ : Shape).Idx → EReal)
    (w : (⟨2, ![D, N]⟩ : Shape).Idx → EReal) (b' : (⟨2, ![1, N]⟩ : Shape).Idx → EReal) : (⟨2, ![M, N]⟩ : Shape).Idx → EReal :=
  fun j => mm (actGt s agg b) w j + b' (ix2 (0 : Fin 1) (j 1))

/-- Row locality of the layer. -/
theorem layer_row {M M' D N : Nat} (s : EReal) (agg : (⟨2, ![M, D]⟩ : Shape).Idx → EReal)
    (agg' : (⟨2, ![M', D]⟩ : Shape).Idx → EReal) (b : (⟨2, ![1, D]⟩ : Shape).Idx → EReal)
    (w : (⟨2, ![D, N]⟩ : Shape).Idx → EReal) (b' : (⟨2, ![1, N]⟩ : Shape).Idx → EReal) (i : Fin M) (p : Fin M') (j : Fin N)
    (h : ∀ k : Fin D, agg' (ix2 p k) = agg (ix2 i k)) : layer s agg' b w b' (ix2 p j) = layer s agg b w b' (ix2 i j) := by
  show mm (actGt s agg' b) w (ix2 p j) + _ = mm (actGt s agg b) w (ix2 i j) + _
  rw [mm_row (actGt s agg b) (actGt s agg' b) w i p j (fun k => by
    show lreluGt s (agg' (ix2 p k) + _) = lreluGt s (agg (ix2 i k) + _)
    rw [h k]
    rfl)]
  rfl

/-- The vector operations of the activation, at the exact values, are `actGt` at the slope's value: bias row broadcast
    and added, compared with zero, scaled by the slope word, selected, narrowed (the narrowing is the identity). -/
theorem act_payload {M D : Nat} (hb : (⟨2, ![1, D]⟩ : Shape).Broadcasts ⟨2, ![M, D]⟩) (hlt : FTy.bf16.bits < FTy.f32.bits)
    (sl : BitVec 32) (v0 : FVec Ideal ⟨2, ![M, D]⟩ .f32) (v2 : FVec Ideal ⟨2, ![1, D]⟩ .f32) :
    (truncf .bf16 (select (cmpf .ogt (addf v0 (broadcastTo ⟨2, ![M, D]⟩ v2 hb))
        (broadcast ⟨2, ![M, D]⟩ (Scalar.ofBits (F := Ideal) .f32 0x00000000#32)))
      (addf v0 (broadcastTo ⟨2, ![M, D]⟩ v2 hb))
      (mulf (broadcast ⟨2, ![M, D]⟩ (Scalar.ofBits (F := Ideal) .f32 sl)) (addf v0 (broadcastTo ⟨2, ![M, D]⟩ v2 hb)))) hlt
      : FVec Ideal ⟨2, ![M, D]⟩ .bf16)
      = actGt (Ideal.ofBits .f32 sl) v0 v2 := by
  funext i
  obtain ⟨p, q, rfl⟩ : ∃ (p : Fin M) (q : Fin D), i = ix2 p q := ⟨i 0, i 1, eq_ix2 i⟩
  show Scalar.select (Ideal.cmp .ogt (v0 (ix2 p q) + broadcastTo ⟨2, ![M, D]⟩ v2 hb (ix2 p q)) (Ideal.ofBits .f32 0x00000000#32))
      (v0 (ix2 p q) + broadcastTo ⟨2, ![M, D]⟩ v2 hb (ix2 p q))
      (Ideal.ofBits .f32 sl * (v0 (ix2 p q) + broadcastTo ⟨2, ![M, D]⟩ v2 hb (ix2 p q))) = _
  rw [broadcastTo_1b_ab_apply, Ideal.ofBits_zero_f32]
  rfl

/-- The whole payload of the fused layer, at the exact values, is `layer`. -/
theorem layer_payload {M D N : Nat} (hb : (⟨2, ![1, D]⟩ : Shape).Broadcasts ⟨2, ![M, D]⟩)
    (hb' : (⟨2, ![1, N]⟩ : Shape).Broadcasts ⟨2, ![M, N]⟩) (hlt : FTy.bf16.bits < FTy.f32.bits) (sl : BitVec 32)
    (v0 : FVec Ideal ⟨2, ![M, D]⟩ .f32) (v2 : FVec Ideal ⟨2, ![1, D]⟩ .f32) (v12 : FVec Ideal ⟨2, ![D, N]⟩ .bf16)
    (v15 : FVec Ideal ⟨2, ![1, N]⟩ .f32) :
    addf (matmul (F := Ideal) (DotDims.plain M D N) none
        (truncf .bf16 (select (cmpf .ogt (addf v0 (broadcastTo ⟨2, ![M, D]⟩ v2 hb))
            (broadcast ⟨2, ![M, D]⟩ (Scalar.ofBits (F := Ideal) .f32 0x00000000#32)))
          (addf v0 (broadcastTo ⟨2, ![M, D]⟩ v2 hb))
          (mulf (broadcast ⟨2, ![M, D]⟩ (Scalar.ofBits (F := Ideal) .f32 sl)) (addf v0 (broadcastTo ⟨2, ![M, D]⟩ v2 hb)))) hlt)
        v12 (constant (F := Ideal) ⟨2, ![M, N]⟩ .f32 0x00000000#32))
      (broadcastTo ⟨2, ![M, N]⟩ v15 hb')
      = layer (Ideal.ofBits .f32 sl) v0 v2 v12 v15 := by
  rw [act_payload hb hlt sl v0 v2, matmul_zero]
  funext j
  obtain ⟨p, q, rfl⟩ : ∃ (p : Fin M) (q : Fin N), j = ix2 p q := ⟨j 0, j 1, eq_ix2 j⟩
  show mm (actGt (Ideal.ofBits .f32 sl) v0 v2) v12 (ix2 p q) + broadcastTo ⟨2, ![M, N]⟩ v15 hb' (ix2 p q) = _
  rw [broadcastTo_1b_ab_apply]
  rfl

end Cert.Lib.DenseLayer

end
-- ==== Proof.LibRowBlock.lean ====
/-
  Row blocks.  The matrix product and the dense layer are row-local, so their value at an index `z` of the whole
  array equals their value at an index `y` of a block of rows whenever the block's row `y 0` of the left operand is
  the whole operand's row `z 0` and the two indices name the same column.  Stated over arbitrary indices (not
  coordinates), so that it can be used at a block's index and at its position in the array.
-/
import proofs.«135166_j35519379538608_1_alg».proof.Proof.LibDenseLayer

noncomputable section

namespace Cert.Lib.RowBlock

open Idealize.ShloMosaic Idealize.ShloMosaic.ValueIdx Cert.Lib.PlainDot Cert.Lib.DenseLayer

/-- The product at index `y` of a row block equals the whole product at `z`: same column, and row `y 0` of the block
    is row `z 0` of the whole left operand. -/
theorem mm_block {M M' K N : Nat} (l : (⟨2, ![M, K]⟩ : Shape).Idx → EReal) (l' : (⟨2, ![M', K]⟩ : Shape).Idx → EReal)
    (r : (⟨2, ![K, N]⟩ : Shape).Idx → EReal) (y : (⟨2, ![M', N]⟩ : Shape).Idx) (z : (⟨2, ![M, N]⟩ : Shape).Idx)
    (h1 : (z 1).val = (y 1).val) (hl : ∀ k : Fin K, l' (ix2 (y 0) k) = l (ix2 (z 0) k)) : mm l' r y = mm l r z := by
  have e : (z 1 : Fin N) = (y 1 : Fin N) := Fin.ext h1
  calc mm l' r y = mm l' r (ix2 (y 0) (y 1)) := congrArg (mm l' r) (eq_ix2 y)
    _ = mm l r (ix2 (z 0) (y 1)) := mm_row l l' r (z 0) (y 0) (y 1) hl
    _ = mm l r (ix2 (z 0) (z 1)) := by rw [e]
    _ = mm l r z := (congrArg (mm l r) (eq_ix2 z)).symm

/-- The same for the dense layer. -/
theorem layer_block {M M' D N : Nat} (s : EReal) (agg : (⟨2, ![M, D]⟩ : Shape).Idx → EReal)
    (agg' : (⟨2, ![M', D]⟩ : Shape).Idx → EReal) (b : (⟨2, ![1, D]⟩ : Shape).Idx → EReal)
    (w : (⟨2, ![D, N]⟩ : Shape).Idx → EReal) (b' : (⟨2, ![1, N]⟩ : Shape).Idx → EReal)
    (y : (⟨2, ![M', N]⟩ : Shape).Idx) (z : (⟨2, ![M, N]⟩ : Shape).Idx)
    (h1 : (z 1).val = (y 1).val) (hl : ∀ k : Fin D, agg' (ix2 (y 0) k) = agg (ix2 (z 0) k)) :
    layer s agg' b w b' y = layer s agg b w b' z := by
  have e : (z 1 : Fin N) = (y 1 : Fin N) := Fin.ext h1
  calc layer s agg' b w b' y = layer s agg' b w b' (ix2 (y 0) (y 1)) := congrArg (layer s agg' b w b') (eq_ix2 y)
    _ = layer s agg b w b' (ix2 (z 0) (y 1)) := layer_row s agg agg' b w b' (z 0) (y 0) (y 1) hl
    _ = layer s agg b w b' (ix2 (z 0) (z 1)) := by rw [e]
    _ = layer s agg b w b' z := (congrArg (layer s agg b w b') (eq_ix2 z)).symm

end Cert.Lib.RowBlock

end
-- ==== Proof.Tiles0.lean ====
/-
  Launch 0: the first projection, feature · W, computed in 8 blocks of 1024 rows.

  The launch cuts the left operand into blocks of 1024 rows.  Grid point t multiplies block t by the whole right
  operand and writes block t of the output.  Row i of a product reads row i of the left operand only, so block t of the
  output is block t of the one whole product, and the 8 blocks tile the output: the array ends holding the product.
-/
import proofs.«135166_j35519379538608_1_alg».proof.Proof.Gen.KernelIdeal.Frame
import proofs.«135166_j35519379538608_1_alg».proof.Proof.LibPlainDot
import proofs.«135166_j35519379538608_1_alg».proof.Proof.LibRowBlock
import Idealize.ShloMosaic.Lib.Pipeline.Value

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.Lib.PlainDot Cert.Lib.RowBlock

variable (V : (c : Dev nD) → (b : Ref sig .tc) → Buf (Elt Ideal) ((c : Thread nD τ).loc b))

/-- The zero offsets of a whole-buffer access, as a constant function. -/
theorem zeroOff0 : (![0, 0] : Fin 2 → Nat) = fun _ => 0 := funext fun a => by fin_cases a <;> rfl

/-- The body's arithmetic: the product of the two loaded blocks (narrowing to bf16 changes nothing at the exact
    values, and the accumulator starts at zero). -/
theorem pay0 (x0 : Vec Ideal S1024x256 .f32) (x1 : Vec Ideal S256x256 .f32) :
    k0_pay1 (F := Ideal) x0 x1 = mm (M := 1024) (K := 256) (N := 256) x0 x1 := by
  unfold k0_pay1
  exact matmul_zero (M := 1024) (K := 256) (N := 256) none x0 x1

/-- What the body leaves in the output's staging buffer: it loads both buffers whole and stores the product whole. -/
theorem body0 (x0 : Vec Ideal S1024x256 .f32) (x1 : Vec Ideal S256x256 .f32) :
    out0_2 (F := Ideal) x0 x1 = mm (M := 1024) (K := 256) (N := 256) x0 x1 := by
  unfold out0_2
  rw [View.canon_unit_zero zeroOff0]
  simp only [View.ld_unit_zero (S := S1024x256) zeroOff0, View.ld_unit_zero (S := S256x256) zeroOff0]
  exact pay0 x0 x1

/-- The block indices at grid point t: the left operand's and the output's block is t on the row axis, the right
    operand's block is the whole array. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some grid point's. -/
theorem blockOnto0 : ∀ q : Fin 8, ∃ t : Fin cfg0.N, t.val = q.val :=
  (by decide +kernel : ∀ q : Fin 8, ∃ t : Fin grid0.N, t.val = q.val)

/-- Entry y of block t of the left operand is the array's entry in row 1024·t + y₀, same column. -/
theorem leftBlock0 (c : Dev nD) (t : Fin cfg0.N) (y : S1024x256.Idx) (z : S8192x256.Idx)
    (h0 : (z 0).val = t.val * 1024 + (y 0).val) (h1 : (z 1).val = (y 1).val) :
    (iblk0 V c 0 t : S1024x256.Idx → EReal) y = (V c main_arg1 : S8192x256.Idx → EReal) z := by
  obtain ⟨e0, e1, -⟩ := blockIdx0 t
  show (V c main_arg1 : S8192x256.Idx → EReal) (((cfg0.win 0).blk t).view.emb y) = (V c main_arg1 : S8192x256.Idx → EReal) z
  refine congrArg (V c main_arg1 : S8192x256.Idx → EReal) ?_
  funext a
  apply Fin.ext
  match a with
  | ⟨0, _⟩ => show win0_0.index t (0 : Fin 2) * 1024 + 1 * (y 0).val = (z 0).val; omega
  | ⟨1, _⟩ => show win0_0.index t (1 : Fin 2) * 256 + 1 * (y 1).val = (z 1).val; omega

/-- The right operand's one block is the whole array. -/
theorem rightBlock0 (c : Dev nD) (t : Fin cfg0.N) :
    (iblk0 V c 1 t : S256x256.Idx → EReal) = (V c main_arg9 : S256x256.Idx → EReal) := by
  obtain ⟨-, -, e2, e3, -⟩ := blockIdx0 t
  funext y
  show (V c main_arg9 : S256x256.Idx → EReal) (((cfg0.win 1).blk t).view.emb y) = (V c main_arg9 : S256x256.Idx → EReal) y
  refine congrArg (V c main_arg9 : S256x256.Idx → EReal) ?_
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What grid point t writes back is block t of the whole product. -/
theorem written0 (c : Dev nD) (t : Fin cfg0.N) :
    (dat0 (F := Ideal) V c).flushed 2 t
      = ((cfg0.win 2).blk t).view.read (Elt Ideal)
          (mm (M := 8192) (K := 256) (N := 256) (V c main_arg1) (V c main_arg9)) := by
  show (cfg0.win 2).cut (grid0.coords t) ((dat0 (F := Ideal) V c).after 2 t) = _
  rw [after0_2, body0, rightBlock0]
  obtain ⟨-, -, -, -, e4, e5⟩ := blockIdx0 t
  funext y
  show mm (M := 1024) (K := 256) (N := 256) (iblk0 V c 0 t) (V c main_arg9) y
    = mm (M := 8192) (K := 256) (N := 256) (V c main_arg1) (V c main_arg9) (((cfg0.win 2).blk t).view.emb y)
  have r0 : ((((cfg0.win 2).blk t).view.emb y : S8192x256.Idx) 0).val = t.val * 1024 + (y 0).val := by
    show win0_2.index t (0 : Fin 2) * 1024 + 1 * (y 0).val = _; omega
  have r1 : ((((cfg0.win 2).blk t).view.emb y : S8192x256.Idx) 1).val = (y 1).val := by
    show win0_2.index t (1 : Fin 2) * 256 + 1 * (y 1).val = _; omega
  exact mm_block (V c main_arg1) (iblk0 V c 0 t) (V c main_arg9) y _ r1 fun k => leftBlock0 V c t (ix2 (y 0) k) _ r0 rfl

/-- An entry of the output is in grid point t's block iff each coordinate is in the block's range on its axis. -/
theorem inBlock0 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- The blocks tile the output: row r is in block r / 1024. -/
theorem tiled0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := blockOnto0 ⟨(i 0).val / 1024, by omega⟩
  have ht' : t.val = (i 0).val / 1024 := ht
  obtain ⟨-, -, -, -, e4, e5⟩ := blockIdx0 t
  refine ⟨t, flush0_2 t, ?_⟩
  rw [inBlock0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-- The launch leaves the whole product in its output array. -/
theorem proj0 (c : Dev nD) :
    (dat0 (F := Ideal) V c).arrAt 2 cfg0.N
      = mm (M := 8192) (K := 256) (N := 256) (V c main_arg1) (V c main_arg9) :=
  (dat0 (F := Ideal) V c).arrAt_eq_of_cover 2 (mm (M := 8192) (K := 256) (N := 256) (V c main_arg1) (V c main_arg9))
    (fun t _ => written0 V c t) tiled0

end Cert.KernelIdeal.Tiles

end
-- ==== Proof.Tiles1.lean ====
/-
  Launch 1: the second projection, feature · W, computed in 8 blocks of 1024 rows.

  The launch cuts the left operand into blocks of 1024 rows.  Grid point t multiplies block t by the whole right
  operand and writes block t of the output.  Row i of a product reads row i of the left operand only, so block t of the
  output is block t of the one whole product, and the 8 blocks tile the output: the array ends holding the product.
-/
import proofs.«135166_j35519379538608_1_alg».proof.Proof.Gen.KernelIdeal.Frame
import proofs.«135166_j35519379538608_1_alg».proof.Proof.LibPlainDot
import proofs.«135166_j35519379538608_1_alg».proof.Proof.LibRowBlock
import Idealize.ShloMosaic.Lib.Pipeline.Value

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.Lib.PlainDot Cert.Lib.RowBlock

variable (V : (c : Dev nD) → (b : Ref sig .tc) → Buf (Elt Ideal) ((c : Thread nD τ).loc b))

/-- The zero offsets of a whole-buffer access, as a constant function. -/
theorem zeroOff1 : (![0, 0] : Fin 2 → Nat) = fun _ => 0 := funext fun a => by fin_cases a <;> rfl

/-- The body's arithmetic: the product of the two loaded blocks (narrowing to bf16 changes nothing at the exact
    values, and the accumulator starts at zero). -/
theorem pay1 (x0 : Vec Ideal S1024x256 .f32) (x1 : Vec Ideal S256x256 .f32) :
    k1_pay1 (F := Ideal) x0 x1 = mm (M := 1024) (K := 256) (N := 256) x0 x1 := by
  unfold k1_pay1
  exact matmul_zero (M := 1024) (K := 256) (N := 256) none x0 x1

/-- What the body leaves in the output's staging buffer: it loads both buffers whole and stores the product whole. -/
theorem body1 (x0 : Vec Ideal S1024x256 .f32) (x1 : Vec Ideal S256x256 .f32) :
    out1_2 (F := Ideal) x0 x1 = mm (M := 1024) (K := 256) (N := 256) x0 x1 := by
  unfold out1_2
  rw [View.canon_unit_zero zeroOff1]
  simp only [View.ld_unit_zero (S := S1024x256) zeroOff1, View.ld_unit_zero (S := S256x256) zeroOff1]
  exact pay1 x0 x1

/-- The block indices at grid point t: the left operand's and the output's block is t on the row axis, the right
    operand's block is the whole array. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some grid point's. -/
theorem blockOnto1 : ∀ q : Fin 8, ∃ t : Fin cfg1.N, t.val = q.val :=
  (by decide +kernel : ∀ q : Fin 8, ∃ t : Fin grid1.N, t.val = q.val)

/-- Entry y of block t of the left operand is the array's entry in row 1024·t + y₀, same column. -/
theorem leftBlock1 (c : Dev nD) (t : Fin cfg1.N) (y : S1024x256.Idx) (z : S8192x256.Idx)
    (h0 : (z 0).val = t.val * 1024 + (y 0).val) (h1 : (z 1).val = (y 1).val) :
    (iblk1 V c 0 t : S1024x256.Idx → EReal) y = (V c main_arg0 : S8192x256.Idx → EReal) z := by
  obtain ⟨e0, e1, -⟩ := blockIdx1 t
  show (V c main_arg0 : S8192x256.Idx → EReal) (((cfg1.win 0).blk t).view.emb y) = (V c main_arg0 : S8192x256.Idx → EReal) z
  refine congrArg (V c main_arg0 : S8192x256.Idx → EReal) ?_
  funext a
  apply Fin.ext
  match a with
  | ⟨0, _⟩ => show win1_0.index t (0 : Fin 2) * 1024 + 1 * (y 0).val = (z 0).val; omega
  | ⟨1, _⟩ => show win1_0.index t (1 : Fin 2) * 256 + 1 * (y 1).val = (z 1).val; omega

/-- The right operand's one block is the whole array. -/
theorem rightBlock1 (c : Dev nD) (t : Fin cfg1.N) :
    (iblk1 V c 1 t : S256x256.Idx → EReal) = (V c main_arg9 : S256x256.Idx → EReal) := by
  obtain ⟨-, -, e2, e3, -⟩ := blockIdx1 t
  funext y
  show (V c main_arg9 : S256x256.Idx → EReal) (((cfg1.win 1).blk t).view.emb y) = (V c main_arg9 : S256x256.Idx → EReal) y
  refine congrArg (V c main_arg9 : S256x256.Idx → EReal) ?_
  funext a
  apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- What grid point t writes back is block t of the whole product. -/
theorem written1 (c : Dev nD) (t : Fin cfg1.N) :
    (dat1 (F := Ideal) V c).flushed 2 t
      = ((cfg1.win 2).blk t).view.read (Elt Ideal)
          (mm (M := 8192) (K := 256) (N := 256) (V c main_arg0) (V c main_arg9)) := by
  show (cfg1.win 2).cut (grid1.coords t) ((dat1 (F := Ideal) V c).after 2 t) = _
  rw [after1_2, body1, rightBlock1]
  obtain ⟨-, -, -, -, e4, e5⟩ := blockIdx1 t
  funext y
  show mm (M := 1024) (K := 256) (N := 256) (iblk1 V c 0 t) (V c main_arg9) y
    = mm (M := 8192) (K := 256) (N := 256) (V c main_arg0) (V c main_arg9) (((cfg1.win 2).blk t).view.emb y)
  have r0 : ((((cfg1.win 2).blk t).view.emb y : S8192x256.Idx) 0).val = t.val * 1024 + (y 0).val := by
    show win1_2.index t (0 : Fin 2) * 1024 + 1 * (y 0).val = _; omega
  have r1 : ((((cfg1.win 2).blk t).view.emb y : S8192x256.Idx) 1).val = (y 1).val := by
    show win1_2.index t (1 : Fin 2) * 256 + 1 * (y 1).val = _; omega
  exact mm_block (V c main_arg0) (iblk1 V c 0 t) (V c main_arg9) y _ r1 fun k => leftBlock1 V c t (ix2 (y 0) k) _ r0 rfl

/-- An entry of the output is in grid point t's block iff each coordinate is in the block's range on its axis. -/
theorem inBlock1 (t : Fin cfg1.N) (i : S8192x256.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v1).slice (win1_2.rect t)).set ↔ _
  rw [View.set_slice_whole, Rect.mem_set_unit]
  exact Iff.rfl

/-- The blocks tile the output: row r is in block r / 1024. -/
theorem tiled1 (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  obtain ⟨t, ht⟩ := blockOnto1 ⟨(i 0).val / 1024, by omega⟩
  have ht' : t.val = (i 0).val / 1024 := ht
  obtain ⟨-, -, -, -, e4, e5⟩ := blockIdx1 t
  refine ⟨t, flush1_2 t, ?_⟩
  rw [inBlock1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 256 ≤ (i 1).val ∧ (i 1).val < win1_2.index t (1 : Fin 2) * 256 + 256
    omega

/-- The launch leaves the whole product in its output array. -/
theorem proj1 (c : Dev nD) :
    (dat1 (F := Ideal) V c).arrAt 2 cfg1.N
      = mm (M := 8192) (K := 256) (N := 256) (V c main_arg0) (V c main_arg9) :=
  (dat1 (F := Ideal) V c).arrAt_eq_of_cover 2 (mm (M := 8192) (K := 256) (N := 256) (V c main_arg0) (V c main_arg9))
    (fun t _ => written1 V c t) tiled1

end Cert.KernelIdeal.Tiles

end
-- ==== Proof.Tiles2.lean ====
/-
  Launch 2: the third projection, feature · W, computed in 4 blocks of 1024 rows.

  The launch cuts the left operand into blocks of 1024 rows.  Grid point t multiplies block t by the whole right
  operand and writes block t of the output.  Row i of a product reads row i of the left operand only, so block t of the
  output is block t of the one whole product, and the 4 blocks tile the output: the array ends holding the product.
-/
import proofs.«135166_j35519379538608_1_alg».proof.Proof.Gen.KernelIdeal.Frame
import proofs.«135166_j35519379538608_1_alg».proof.Proof.LibPlainDot
import proofs.«135166_j35519379538608_1_alg».proof.Proof.LibRowBlock
import Idealize.ShloMosaic.Lib.Pipeline.Value

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.Lib.PlainDot Cert.Lib.RowBlock

variable (V : (c : Dev nD) → (b : Ref sig .tc) → Buf (Elt Ideal) ((c : Thread nD τ).loc b))

/-- The zero offsets of a whole-buffer access, as a constant function. -/
theorem zeroOff2 : (![0, 0] : Fin 2 → Nat) = fun _ => 0 := funext fun a => by fin_cases a <;> rfl

/-- The body's arithmetic: the product of the two loaded blocks (narrowing to bf16 changes nothing at the exact
    values, and the accumulator starts at zero). -/
theorem pay2 (x0 : Vec Ideal S1024x256 .f32) (x1 : Vec Ideal S256x256 .f32) :
    k2_pay1 (F := Ideal) x0 x1 = mm (M := 1024) (K := 256) (N := 256) x0 x1 := by
  unfold k2_pay1
  exact matmul_zero (M := 1024) (K := 256) (N := 256) none x0 x1

/-- What the body leaves in the output's staging buffer: it loads both buffers whole and stores the product whole. -/
theorem body2 (x0 : Vec Ideal S1024x256 .f32) (x1 : Vec Ideal S256x256 .f32) :
    out2_2 (F := Ideal) x0 x1 = mm (M := 1024) (K := 256) (N := 256) x0 x1 := by
  unfold out2_2
  rw [View.canon_unit_zero zeroOff2]
  simp only [View.ld_unit_zero (S := S1024x256) zeroOff2, View.ld_unit_zero (S := S256x256) zeroOff2]
  exact pay2 x0 x1

/-- The block indices at grid point t: the left operand's and the output's block is t on the row axis, the right
    operand's block is the whole array. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some grid point's. -/
theorem blockOnto2 : ∀ q : Fin 4, ∃ t : Fin cfg2.N, t.val = q.val :=
  (by decide +kernel : ∀ q : Fin 4, ∃ t : Fin grid2.N, t.val = q.val)

/-- Entry y of block t of the left operand is the array's entry in row 1024·t + y₀, same column. -/
theorem leftBlock2 (c : Dev nD) (t : Fin cfg2.N) (y : S1024x256.Idx) (z : S4096x256.Idx)
    (h0 : (z 0).val = t.val * 1024 + (y 0).val) (h1 : (z 1).val = (y 1).val) :
    (iblk2 V c 0 t : S1024x256.Idx → EReal) y = (V c main_arg2 : S4096x256.Idx → EReal) z := by
  obtain ⟨e0, e1, -⟩ := blockIdx2 t
  show (V c main_arg2 : S4096x256.Idx → EReal) (((cfg2.win 0).blk t).view.emb y) = (V c main_arg2 : S4096x256.Idx → EReal) z
  refine congrArg (V c main_arg2 : S4096x256.Idx → EReal) ?_
  funext a
  apply Fin.ext
  match a with
  | ⟨0, _⟩ => show win2_0.index t (0 : Fin 2) * 1024 + 1 * (y 0).val = (z 0).val; omega
  | ⟨1, _⟩ => show win2_0.index t (1 : Fin 2) * 256 + 1 * (y 1).val = (z 1).val; omega

/-- The right operand's one block is the whole array. -/
theorem rightBlock2 (c : Dev nD) (t : Fin cfg2.N) :
    (iblk2 V c 1 t : S256x256.Idx → EReal) = (V c main_arg9 : S256x256.Idx → EReal) := by
  obtain ⟨-, -, e2, e3, -⟩ := blockIdx2 t
  funext y
  show (V c main_arg9 : S256x256.Idx → EReal) (((cfg2.win 1).blk t).view.emb y) = (V c main_arg9 : S256x256.Idx → EReal) y
  refine congrArg (V c main_arg9 : S256x256.Idx → EReal) ?_
  funext a
  apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- What grid point t writes back is block t of the whole product. -/
theorem written2 (c : Dev nD) (t : Fin cfg2.N) :
    (dat2 (F := Ideal) V c).flushed 2 t
      = ((cfg2.win 2).blk t).view.read (Elt Ideal)
          (mm (M := 4096) (K := 256) (N := 256) (V c main_arg2) (V c main_arg9)) := by
  show (cfg2.win 2).cut (grid2.coords t) ((dat2 (F := Ideal) V c).after 2 t) = _
  rw [after2_2, body2, rightBlock2]
  obtain ⟨-, -, -, -, e4, e5⟩ := blockIdx2 t
  funext y
  show mm (M := 1024) (K := 256) (N := 256) (iblk2 V c 0 t) (V c main_arg9) y
    = mm (M := 4096) (K := 256) (N := 256) (V c main_arg2) (V c main_arg9) (((cfg2.win 2).blk t).view.emb y)
  have r0 : ((((cfg2.win 2).blk t).view.emb y : S4096x256.Idx) 0).val = t.val * 1024 + (y 0).val := by
    show win2_2.index t (0 : Fin 2) * 1024 + 1 * (y 0).val = _; omega
  have r1 : ((((cfg2.win 2).blk t).view.emb y : S4096x256.Idx) 1).val = (y 1).val := by
    show win2_2.index t (1 : Fin 2) * 256 + 1 * (y 1).val = _; omega
  exact mm_block (V c main_arg2) (iblk2 V c 0 t) (V c main_arg9) y _ r1 fun k => leftBlock2 V c t (ix2 (y 0) k) _ r0 rfl

/-- An entry of the output is in grid point t's block iff each coordinate is in the block's range on its axis. -/
theorem inBlock2 (t : Fin cfg2.N) (i : S4096x256.Idx) :
    i ∈ ((cfg2.win 2).blk t).view.set ↔ ∀ a : Fin 2, win2_2.index t a * S1024x256.size a ≤ (i a).val
      ∧ (i a).val < win2_2.index t a * S1024x256.size a + S1024x256.size a := by
  show i ∈ ((View.whole main_v2).slice (win2_2.rect t)).set ↔ _
  rw [View.set_slice_whole, Rect.mem_set_unit]
  exact Iff.rfl

/-- The blocks tile the output: row r is in block r / 1024. -/
theorem tiled2 (i : S4096x256.Idx) :
    ∃ t : Fin cfg2.N, (cfg2.win 2).flush t = true ∧ i ∈ ((cfg2.win 2).blk t).view.set := by
  have hi0 : (i 0).val < 4096 := (i 0).isLt
  have hi1 : (i 1).val < 256 := (i 1).isLt
  obtain ⟨t, ht⟩ := blockOnto2 ⟨(i 0).val / 1024, by omega⟩
  have ht' : t.val = (i 0).val / 1024 := ht
  obtain ⟨-, -, -, -, e4, e5⟩ := blockIdx2 t
  refine ⟨t, flush2_2 t, ?_⟩
  rw [inBlock2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 256 ≤ (i 1).val ∧ (i 1).val < win2_2.index t (1 : Fin 2) * 256 + 256
    omega

/-- The launch leaves the whole product in its output array. -/
theorem proj2 (c : Dev nD) :
    (dat2 (F := Ideal) V c).arrAt 2 cfg2.N
      = mm (M := 4096) (K := 256) (N := 256) (V c main_arg2) (V c main_arg9) :=
  (dat2 (F := Ideal) V c).arrAt_eq_of_cover 2 (mm (M := 4096) (K := 256) (N := 256) (V c main_arg2) (V c main_arg9))
    (fun t _ => written2 V c t) tiled2

end Cert.KernelIdeal.Tiles

end
-- ==== Proof.LibBilinear.lean ====
/-
  The bilinear score  (a · q) · bᵀ  read index by index over the extended reals.

  With  a : M×K,  q : K×K,  b : N×K  the score at (i, n) is  ∑ k, (∑ j, a (i, j) · q (j, k)) · b (n, k).
  Entry (i, n) reads row i of a, all of q, and row n of b only.  Hence a tile of the score — rows taken from a
  block of rows of a, columns from a block of rows of b — is the score of the two blocks, and a score computed tile
  by tile over both axes is the one whole score.
-/
import proofs.«135166_j35519379538608_1_alg».proof.Proof.LibPlainDot
import Idealize.ShloMosaic.Lib.ValueLayout

noncomputable section

namespace Cert.Lib.Bilinear

open Idealize.ShloMosaic Idealize.ShloMosaic.ValueIdx Cert.Lib.PlainDot

/-- The transposed array: entry (k, n) is the operand's entry (n, k). -/
def tr {N K : Nat} (b : (⟨2, ![N, K]⟩ : Shape).Idx → EReal) : (⟨2, ![K, N]⟩ : Shape).Idx → EReal :=
  fun j => b (ix2 (j 1) (j 0))

theorem tr_apply {N K : Nat} (b : (⟨2, ![N, K]⟩ : Shape).Idx → EReal) (k : Fin K) (n : Fin N) :
    tr b (ix2 k n) = b (ix2 n k) := rfl

/-- The layout operation that swaps the two axes of a matrix is `tr`. -/
theorem transpose_eq_tr {N K : Nat} (b : (⟨2, ![N, K]⟩ : Shape).Idx → EReal)
    (h : (⟨2, ![N, K]⟩ : Shape).Transposes [1, 0] ⟨2, ![K, N]⟩) :
    transpose ⟨2, ![K, N]⟩ [1, 0] b h = tr b :=
  funext fun j =>
    calc transpose ⟨2, ![K, N]⟩ [1, 0] b h j
        = transpose ⟨2, ![K, N]⟩ [1, 0] b h (ix2 (j 0) (j 1)) := congrArg _ (eq_ix2 j)
      _ = b (ix2 (j 1) (j 0)) := transpose_ix2_apply b h (j 0) (j 1)

/-- Locality of the product in both operands: entry `y` of a product of a block of rows of the left operand with a
    block of columns of the right operand is entry `z` of the whole product, when row `y 0` of the left block is row
    `z 0` of the whole and column `y 1` of the right block is column `z 1` of the whole. -/
theorem mm_block2 {M M' K N N' : Nat} (l : (⟨2, ![M, K]⟩ : Shape).Idx → EReal) (l' : (⟨2, ![M', K]⟩ : Shape).Idx → EReal)
    (r : (⟨2, ![K, N]⟩ : Shape).Idx → EReal) (r' : (⟨2, ![K, N']⟩ : Shape).Idx → EReal)
    (y : (⟨2, ![M', N']⟩ : Shape).Idx) (z : (⟨2, ![M, N]⟩ : Shape).Idx)
    (hl : ∀ k : Fin K, l' (ix2 (y 0) k) = l (ix2 (z 0) k)) (hr : ∀ k : Fin K, r' (ix2 k (y 1)) = r (ix2 k (z 1))) :
    mm l' r' y = mm l r z := by
  unfold mm
  exact Finset.sum_congr rfl fun k _ => by rw [hl k, hr k]

/-- The bilinear score (a · q) · bᵀ. -/
def score {M K N : Nat} (a : (⟨2, ![M, K]⟩ : Shape).Idx → EReal) (q : (⟨2, ![K, K]⟩ : Shape).Idx → EReal)
    (b : (⟨2, ![N, K]⟩ : Shape).Idx → EReal) : (⟨2, ![M, N]⟩ : Shape).Idx → EReal :=
  mm (mm a q) (tr b)

/-- A tile of the score is the score of the two row blocks. -/
theorem score_block {M M' K N N' : Nat} (a : (⟨2, ![M, K]⟩ : Shape).Idx → EReal) (a' : (⟨2, ![M', K]⟩ : Shape).Idx → EReal)
    (q : (⟨2, ![K, K]⟩ : Shape).Idx → EReal) (b : (⟨2, ![N, K]⟩ : Shape).Idx → EReal) (b' : (⟨2, ![N', K]⟩ : Shape).Idx → EReal)
    (y : (⟨2, ![M', N']⟩ : Shape).Idx) (z : (⟨2, ![M, N]⟩ : Shape).Idx)
    (ha : ∀ k : Fin K, a' (ix2 (y 0) k) = a (ix2 (z 0) k)) (hb : ∀ k : Fin K, b' (ix2 (y 1) k) = b (ix2 (z 1) k)) :
    score a' q b' y = score a q b z :=
  mm_block2 (mm a q) (mm a' q) (tr b) (tr b') y z (fun k => mm_row a a' q (z 0) (y 0) k ha) (fun k => hb k)

end Cert.Lib.Bilinear

end
-- ==== Proof.Tiles3.lean ====
/-
  Launch 3: the score of the first two embeddings, (a · q) · bᵀ, computed in 8×4 tiles.

  The launch cuts a into blocks of 1024 rows and b into blocks of 2048 rows.  Grid point (s, t) forms
  (a_s · q) · b_tᵀ and writes tile (s, t) of the output.  Entry (i, n) of the score reads row i of a and row n of b
  only, so tile (s, t) of the output is tile (s, t) of the one whole score, and the 8×4 tiles tile the output.
-/
import proofs.«135166_j35519379538608_1_alg».proof.Proof.Gen.KernelIdeal.Frame
import proofs.«135166_j35519379538608_1_alg».proof.Proof.LibPlainDot
import proofs.«135166_j35519379538608_1_alg».proof.Proof.LibRowBlock
import proofs.«135166_j35519379538608_1_alg».proof.Proof.LibBilinear
import Idealize.ShloMosaic.Lib.Pipeline.Value

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.Lib.PlainDot Cert.Lib.Bilinear

variable (V : (c : Dev nD) → (b : Ref sig .tc) → Buf (Elt Ideal) ((c : Thread nD τ).loc b))

/-- The zero offsets of a whole-buffer access, as a constant function. -/
theorem zeroOff3 : (![0, 0] : Fin 2 → Nat) = fun _ => 0 := funext fun a => by fin_cases a <;> rfl

/-- The body's arithmetic: (a · q) · bᵀ of the three loaded blocks (narrowing to bf16 changes nothing at the exact
    values, both accumulators start at zero, and the reshapes are to the same shape). -/
theorem pay3 (x0 : Vec Ideal S1024x128 .f32) (x1 : Vec Ideal S128x128 .f32) (x2 : Vec Ideal S2048x128 .f32) :
    k3_pay1 (F := Ideal) x0 x1 x2 = score (M := 1024) (K := 128) (N := 2048) x0 x1 x2 := by
  unfold k3_pay1
  simp only [shapeCast_self]
  have e1 : matmul (F := Ideal) dot_S1024x128_S128x128_S1024x128_1_0_0_1_n_n none
      (truncf (F := Ideal) .bf16 x0 bitsLt_bf16_f32) (truncf (F := Ideal) .bf16 x1 bitsLt_bf16_f32)
      (constant (F := Ideal) S1024x128 .f32 0x00000000#32) = mm (M := 1024) (K := 128) (N := 128) x0 x1 :=
    matmul_zero (M := 1024) (K := 128) (N := 128) none _ _
  have e2 : transpose S128x2048 [1, 0] (truncf (F := Ideal) .bf16 x2 bitsLt_bf16_f32) transposes_S2048x128_p1_0_S128x2048
      = tr (N := 2048) (K := 128) x2 :=
    transpose_eq_tr (N := 2048) (K := 128) x2 _
  rw [e1, e2]
  exact matmul_zero (M := 1024) (K := 128) (N := 2048) none _ _

/-- What the body leaves in the output's staging buffer: it loads the three buffers whole and stores the score whole. -/
theorem body3 (x0 : Vec Ideal S1024x128 .f32) (x1 : Vec Ideal S128x128 .f32) (x2 : Vec Ideal S2048x128 .f32) :
    out3_3 (F := Ideal) x0 x1 x2 = score (M := 1024) (K := 128) (N := 2048) x0 x1 x2 := by
  unfold out3_3
  rw [View.canon_unit_zero zeroOff3]
  simp only [View.ld_unit_zero (S := S1024x128) zeroOff3, View.ld_unit_zero (S := S128x128) zeroOff3,
    View.ld_unit_zero (S := S2048x128) zeroOff3]
  exact pay3 x0 x1 x2

/-- The block indices at a grid point: a's block follows the output tile's row index, b's block the tile's column
    index, q's block is the whole array; the tile indices stay in their ranges. -/
theorem blockIdx3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (1 : Fin 2) ∧ win3_2.index t (1 : Fin 2) = 0
    ∧ win3_3.index t (0 : Fin 2) ≤ 7 ∧ win3_3.index t (1 : Fin 2) ≤ 3 :=
  (by decide +kernel : ∀ t : Fin grid3.N, _)

/-- Every tile is some grid point's. -/
theorem blockOnto3 : ∀ (q0 : Fin 8) (q1 : Fin 4), ∃ t : Fin cfg3.N,
    win3_3.index t (0 : Fin 2) = q0.val ∧ win3_3.index t (1 : Fin 2) = q1.val :=
  (by decide +kernel : ∀ (q0 : Fin 8) (q1 : Fin 4), ∃ t : Fin grid3.N,
    win3_3.index t (0 : Fin 2) = q0.val ∧ win3_3.index t (1 : Fin 2) = q1.val)

/-- Entry y of a's block at a grid point is the array's entry in row 1024·s + y₀, same column (s the tile's row index). -/
theorem aBlock3 (c : Dev nD) (t : Fin cfg3.N) (y : S1024x128.Idx) (z : S8192x128.Idx)
    (h0 : (z 0).val = win3_3.index t (0 : Fin 2) * 1024 + (y 0).val) (h1 : (z 1).val = (y 1).val) :
    (iblk3 V c 0 t : S1024x128.Idx → EReal) y = (V c main_v90 : S8192x128.Idx → EReal) z := by
  obtain ⟨e0, e1, -⟩ := blockIdx3 t
  show (V c main_v90 : S8192x128.Idx → EReal) (((cfg3.win 0).blk t).view.emb y) = (V c main_v90 : S8192x128.Idx → EReal) z
  refine congrArg (V c main_v90 : S8192x128.Idx → EReal) ?_
  funext i
  apply Fin.ext
  match i with
  | ⟨0, _⟩ => show win3_0.index t (0 : Fin 2) * 1024 + 1 * (y 0).val = (z 0).val; omega
  | ⟨1, _⟩ => show win3_0.index t (1 : Fin 2) * 128 + 1 * (y 1).val = (z 1).val; omega

/-- q's one block is the whole array. -/
theorem qBlock3 (c : Dev nD) (t : Fin cfg3.N) :
    (iblk3 V c 1 t : S128x128.Idx → EReal) = (V c main_arg22 : S128x128.Idx → EReal) := by
  obtain ⟨-, -, e2, e3, -⟩ := blockIdx3 t
  funext y
  show (V c main_arg22 : S128x128.Idx → EReal) (((cfg3.win 1).blk t).view.emb y) = (V c main_arg22 : S128x128.Idx → EReal) y
  refine congrArg (V c main_arg22 : S128x128.Idx → EReal) ?_
  funext i
  apply Fin.ext
  match i with
  | ⟨0, _⟩ => show win3_1.index t (0 : Fin 2) * 128 + 1 * (y 0).val = (y 0).val; omega
  | ⟨1, _⟩ => show win3_1.index t (1 : Fin 2) * 128 + 1 * (y 1).val = (y 1).val; omega

/-- Entry y of b's block at a grid point is the array's entry in row 2048·t + y₀, same column (t the tile's column index). -/
theorem bBlock3 (c : Dev nD) (t : Fin cfg3.N) (y : S2048x128.Idx) (z : S8192x128.Idx)
    (h0 : (z 0).val = win3_3.index t (1 : Fin 2) * 2048 + (y 0).val) (h1 : (z 1).val = (y 1).val) :
    (iblk3 V c 2 t : S2048x128.Idx → EReal) y = (V c main_v122 : S8192x128.Idx → EReal) z := by
  obtain ⟨-, -, -, -, e4, e5, -⟩ := blockIdx3 t
  show (V c main_v122 : S8192x128.Idx → EReal) (((cfg3.win 2).blk t).view.emb y) = (V c main_v122 : S8192x128.Idx → EReal) z
  refine congrArg (V c main_v122 : S8192x128.Idx → EReal) ?_
  funext i
  apply Fin.ext
  match i with
  | ⟨0, _⟩ => show win3_2.index t (0 : Fin 2) * 2048 + 1 * (y 0).val = (z 0).val; omega
  | ⟨1, _⟩ => show win3_2.index t (1 : Fin 2) * 128 + 1 * (y 1).val = (z 1).val; omega

/-- What a grid point writes back is its tile of the whole score. -/
theorem written3 (c : Dev nD) (t : Fin cfg3.N) :
    (dat3 (F := Ideal) V c).flushed 3 t
      = ((cfg3.win 3).blk t).view.read (Elt Ideal)
          (score (M := 8192) (K := 128) (N := 8192) (V c main_v90) (V c main_arg22) (V c main_v122)) := by
  show (cfg3.win 3).cut (grid3.coords t) ((dat3 (F := Ideal) V c).after 3 t) = _
  rw [after3_3, body3, qBlock3]
  funext y
  show score (M := 1024) (K := 128) (N := 2048) (iblk3 V c 0 t) (V c main_arg22) (iblk3 V c 2 t) y
    = score (M := 8192) (K := 128) (N := 8192) (V c main_v90) (V c main_arg22) (V c main_v122) (((cfg3.win 3).blk t).view.emb y)
  have r0 : ((((cfg3.win 3).blk t).view.emb y : S8192x8192.Idx) 0).val = win3_3.index t (0 : Fin 2) * 1024 + (y 0).val := by
    show win3_3.index t (0 : Fin 2) * 1024 + 1 * (y 0).val = _; omega
  have r1 : ((((cfg3.win 3).blk t).view.emb y : S8192x8192.Idx) 1).val = win3_3.index t (1 : Fin 2) * 2048 + (y 1).val := by
    show win3_3.index t (1 : Fin 2) * 2048 + 1 * (y 1).val = _; omega
  exact score_block (V c main_v90) (iblk3 V c 0 t) (V c main_arg22) (V c main_v122) (iblk3 V c 2 t) y _
    (fun k => aBlock3 V c t (ix2 (y 0) k) _ r0 rfl) (fun k => bBlock3 V c t (ix2 (y 1) k) _ r1 rfl)

/-- An entry of the output is in a grid point's tile iff each coordinate is in the tile's range on its axis. -/
theorem inBlock3 (t : Fin cfg3.N) (i : S8192x8192.Idx) :
    i ∈ ((cfg3.win 3).blk t).view.set ↔ ∀ a : Fin 2, win3_3.index t a * S1024x2048.size a ≤ (i a).val
      ∧ (i a).val < win3_3.index t a * S1024x2048.size a + S1024x2048.size a := by
  show i ∈ ((View.whole main_v155).slice (win3_3.rect t)).set ↔ _
  rw [View.set_slice_whole, Rect.mem_set_unit]
  exact Iff.rfl

/-- The tiles tile the output: entry (r, s) is in tile (r / 1024, s / 2048). -/
theorem tiled3 (i : S8192x8192.Idx) :
    ∃ t : Fin cfg3.N, (cfg3.win 3).flush t = true ∧ i ∈ ((cfg3.win 3).blk t).view.set := by
  have hi0 : (i 0).val < 8192 := (i 0).isLt
  have hi1 : (i 1).val < 8192 := (i 1).isLt
  obtain ⟨t, q0, q1⟩ := blockOnto3 ⟨(i 0).val / 1024, by omega⟩ ⟨(i 1).val / 2048, by omega⟩
  have q0' : win3_3.index t (0 : Fin 2) = (i 0).val / 1024 := q0
  have q1' : win3_3.index t (1 : Fin 2) = (i 1).val / 2048 := q1
  refine ⟨t, flush3_3 t, ?_⟩
  rw [inBlock3]
  intro a
  match a with
  | ⟨0, _⟩ =>
    show win3_3.index t (0 : Fin 2) * 1024 ≤ (i 0).val ∧ (i 0).val < win3_3.index t (0 : Fin 2) * 1024 + 1024
    omega
  | ⟨1, _⟩ =>
    show win3_3.index t (1 : Fin 2) * 2048 ≤ (i 1).val ∧ (i 1).val < win3_3.index t (1 : Fin 2) * 2048 + 2048
    omega

/-- The launch leaves the whole score in its output array. -/
theorem score3 (c : Dev nD) :
    (dat3 (F := Ideal) V c).arrAt 3 cfg3.N
      = score (M := 8192) (K := 128) (N := 8192) (V c main_v90) (V c main_arg22) (V c main_v122) :=
  (dat3 (F := Ideal) V c).arrAt_eq_of_cover 3
    (score (M := 8192) (K := 128) (N := 8192) (V c main_v90) (V c main_arg22) (V c main_v122))
    (fun t _ => written3 V c t) tiled3

end Cert.KernelIdeal.Tiles

end
-- ==== Proof.Tiles4.lean ====
/-
  Launch 4: the score of the last two embeddings, (a · q) · bᵀ, computed in 8×2 tiles.

  The launch cuts a into blocks of 1024 rows and b into blocks of 2048 rows.  Grid point (s, t) forms
  (a_s · q) · b_tᵀ and writes tile (s, t) of the output.  Entry (i, n) of the score reads row i of a and row n of b
  only, so tile (s, t) of the output is tile (s, t) of the one whole score, and the 8×2 tiles tile the output.
-/
import proofs.«135166_j35519379538608_1_alg».proof.Proof.Gen.KernelIdeal.Frame
import proofs.«135166_j35519379538608_1_alg».proof.Proof.LibPlainDot
import proofs.«135166_j35519379538608_1_alg».proof.Proof.LibRowBlock
import proofs.«135166_j35519379538608_1_alg».proof.Proof.LibBilinear
import Idealize.ShloMosaic.Lib.Pipeline.Value

set_option maxRecDepth 16384

noncomputable section

namespace Cert.KernelIdeal.Tiles

open Idealize.ShloMosaic Idealize.ShloMosaic.TcCoe Idealize.SL.Sem Idealize.ShloMosaic.ValueIdx
open Cert.KernelIdeal Cert.KernelIdeal.Gen Cert.Lib.PlainDot Cert.Lib.Bilinear

variable (V : (c : Dev nD) → (b : Ref sig .tc) → Buf (Elt Ideal) ((c : Thread nD τ).loc b))

/-- The zero offsets of a whole-buffer access, as a constant function. -/
theorem zeroOff4 : (![0, 0] : Fin 2 → Nat) = fun _ => 0 := funext fun a => by fin_cases a <;> rfl

/-- The body's arithmetic: (a · q) · bᵀ of the three loaded blocks (narrowing to bf16 changes nothing at the exact
    values, both accumulators start at zero, and the reshapes are to the same shape). -/
theorem pay4 (x0 : Vec Ideal S1024x128 .f32) (x1 : Vec Ideal S128x128 .f32) (x2 : Vec Ideal S2048x128 .f32) :
    k4_pay1 (F := Ideal) x0 x1 x2 = score (M := 1024) (K := 128) (N := 2048) x0 x1 x2 := by
  unfold k4_pay1
  simp only [shapeCast_self]
  have e1 : matmul (F := Ideal) dot_S1024x128_S128x128_S1024x128_1_0_0_1_n_n none
      (truncf (F := Ideal) .bf16 x0 bitsLt_bf16_f32) (truncf (F := Ideal) .bf16 x1 bitsLt_bf16_f32)
      (constant (F := Ideal) S1024x128 .f32 0x00000000#32) = mm (M := 1024) (K := 128) (N := 128) x0 x1 :=
    matmul_zero (M := 1024) (K := 128) (N := 128) none _ _
  have e2 : transpose S128x2048 [1, 0] (truncf (F := Ideal) .bf16 x2 bitsLt_bf16_f32) transposes_S2048x128_p1_0_S128x2048
      = tr (N := 2048) (K := 128) x2 :=
    transpose_eq_tr (N := 2048) (K := 128) x2 _
  rw [e1, e2]
  exact matmul_zero (M := 1024) (K := 128) (N := 2048) none _ _

/-- What the body leaves in the output's staging buffer: it loads the three buffers whole and stores the score whole. -/
theorem body4 (x0 : Vec Ideal S1024x128 .f32) (x1 : Vec Ideal S128x128 .f32) (x2 : Vec Ideal S2048x128 .f32) :
    out4_3 (F := Ideal) x0 x1 x2 = score (M := 1024) (K := 128) (N := 2048) x0 x1 x2 := by
  unfold out4_3
  rw [View.canon_unit_zero zeroOff4]
  simp only [View.ld_unit_zero (S := S1024x128) zeroOff4, View.ld_unit_zero (S := S128x128) zeroOff4,
    View.ld_unit_zero (S := S2048x128) zeroOff4]
  exact pay4 x0 x1 x2

/-- The block indices at a grid point: a's block follows the output tile's row index, b's block the tile's column
    index, q's block is the whole array; the tile indices stay in their ranges. -/
theorem blockIdx4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = win4_3.index t (1 : Fin 2) ∧ win4_2.index t (1 : Fin 2) = 0
    ∧ win4_3.index t (0 : Fin 2) ≤ 7 ∧ win4_3.index t (1 : Fin 2) ≤ 1 :=
  (by decide +kernel : ∀ t : Fin grid4.N, _)

/-- Every tile is some grid point's. -/
theorem blockOnto4 : ∀ (q0 : Fin 8) (q1 : Fin 2), ∃ t : Fin cfg4.N,
    win4_3.index t (0 : Fin 2) = q0.val ∧ win4_3.index t (1 : Fin 2) = q1.val :=
  (by decide +kernel : ∀ (q0 : Fin 8) (q1 : Fin 2), ∃ t : Fin grid4.N,
    win4_3.index t (0 : Fin 2) = q0.val ∧ win4_3.index t (1 : Fin 2) = q1.val)

/-- Entry y of a's block at a grid point is the array's entry in row 1024·s + y₀, same column (s the tile's row index). -/
theorem aBlock4 (c : Dev nD) (t : Fin cfg4.N) (y : S1024x128.Idx) (z : S8192x128.Idx)
    (h0 : (z 0).val = win4_3.index t (0 : Fin 2) * 1024 + (y 0).val) (h1 : (z 1).val = (y 1).val) :
    (iblk4 V c 0 t : S1024x128.Idx → EReal) y = (V c main_v122 : S8192x128.Idx → EReal) z := by
  obtain ⟨e0, e1, -⟩ := blockIdx4 t
  show (V c main_v122 : S8192x128.Idx → EReal) (((cfg4.win 0).blk t).view.emb y) = (V c main_v122 : S8192x128.Idx → EReal) z
  refine congrArg (V c main_v122 : S8192x128.Idx → EReal) ?_
  funext i
  apply Fin.ext
  match i with
  | ⟨0, _⟩ => show win4_0.index t (0 : Fin 2) * 1024 + 1 * (y 0).val = (z 0).val; omega
  | ⟨1, _⟩ => show win4_0.index t (1 : Fin 2) * 128 + 1 * (y 1).val = (z 1).val; omega

/-- q's one block is the whole array. -/
theorem qBlock4 (c : Dev nD) (t : Fin cfg4.N) :
    (iblk4 V c 1 t : S128x128.Idx → EReal) = (V c main_arg22 : S128x128.Idx → EReal) := by
  obtain ⟨-, -, e2, e3, -⟩ := blockIdx4 t
  funext y
  show (V c main_arg22 : S128x128.Idx → EReal) (((cfg4.win 1).blk t).view.emb y) = (V c main_arg22 : S128x128.Idx → EReal) y
  refine congrArg (V c main_arg22 : S128x128.Idx → EReal) ?_
  funext i
  apply Fin.ext
  match i with
  | ⟨0, _⟩ => show win4_1.index t (0 : Fin 2) * 128 + 1 * (y 0).val = (y 0).val; omega
  | ⟨1, _⟩ => show win4_1.index t (1 : Fin 2) * 128 + 1 * (y 1).val = (y 1).val; omega

/-- Entry y of b's block at a grid point is the array's entry in row 2048·t + y₀, same column (t the tile's column index). -/
theorem bBlock4 (c : Dev nD) (t : Fin cfg4.N) (y : S2048x128.Idx) (z : S4096x128.Idx)
    (h0 : (z 0).val = win4_3.index t (1 : Fin 2) * 2048 + (y 0).val) (h1 : (z 1).val = (y 1).val) :
    (iblk4 V c 2 t : S2048x128.Idx → EReal) y = (V c main_v154 : S4096x128.Idx → EReal) z := by
  obtain ⟨-, -, -, -, e4, e5, -⟩ := blockIdx4 t
  show (V c main_v154 : S4096x128.Idx → EReal) (((cfg4.win 2).blk t).view.emb y) = (V c main_v154 : S4096x128.Idx → EReal) z
  refine congrArg (V c main_v154 : S4096x128.Idx → EReal) ?_
  funext i
  apply Fin.ext
  match i with
  | ⟨0, _⟩ => show win4_2.index t (0 : Fin 2) * 2048 + 1 * (y 0).val = (z 0).val; omega
  | ⟨1, _⟩ => show win4_2.index t (1 : Fin 2) * 128 + 1 * (y 1).val = (z 1).val; omega

/-- What a grid point writes back is its tile of the whole score. -/
theorem written4 (c : Dev nD) (t : Fin cfg4.N) :
    (dat4 (F := Ideal) V c).flushed 3 t
      = ((cfg4.win 3).blk t).view.read (Elt Ideal)
          (score (M := 8192) (K := 128) (N := 4096) (V c main_v122) (V c main_arg22) (V c main_v154)) := by
  show (cfg4.win 3).cut (grid4.coords t) ((dat4 (F := Ideal) V c).after 3 t) = _
  rw [after4_3, body4, qBlock4]
  funext y
  show score (M := 1024) (K := 128) (N := 2048) (iblk4 V c 0 t) (V c main_arg22) (iblk4 V c 2 t) y
    = score (M := 8192) (K := 128) (N := 4096) (V c main_v122) (V c main_arg22) (V c main_v154) (((cfg4.win 3).blk t).view.emb y)
  have r0 : ((((cfg4.win 3).blk t).view.emb y : S8192x4096.Idx) 0).val = win4_3.index t (0 : Fin 2) * 1024 + (y 0).val := by
    show win4_3.index t (0 : Fin 2) * 1024 + 1 * (y 0).val = _; omega
  have r1 : ((((cfg4.win 3).blk t).view.emb y : S8192x4096.Idx) 1).val = win4_3.index t (1 : Fin 2) * 2048 + (y 1).val := by
    show win4_3.index t (1 : Fin 2) * 2048 + 1 * (y 1).val = _; omega
  exact score_block (V c main_v122) (iblk4 V c 0 t) (V c main_arg22) (V c main_v154) (iblk4 V c 2 t) y _
    (fun k => aBlock4 V c t (ix2 (y 0) k) _ r0 rfl) (fun k => bBlock4 V c t (ix2 (y 1) k) _ r1 rfl)

/-- An entry of the output is in a grid point's tile iff each coordinate is in the tile's range on its axis. -/
theorem inBlock4 (t : Fin cfg4.N) (i : S8192x4096.Idx) :
    i ∈ ((cfg4.win 3).blk t).view.set ↔ ∀ a : Fin 2, win4_3.index t a * S1024x2048.size a ≤ (i a).val
      ∧ (i a).val < win4_3.index t a * S1024x2048.size a + S1024x2048.size a := by
  show i ∈ ((View.whole main_v156).slice (win4_3.rect t)).set ↔ _
  rw [View.set_slice_whole, Rect.mem_set_unit]
  exact Iff.rfl

/-- The tiles tile the output: entry (r, s) is in tile (r / 1024, s / 2048). -/
theorem tiled4 (i : S8192x4096.Idx) :
    ∃ t : Fin cfg4.N, (cfg4.win 3).flush t = true ∧ i ∈ ((cfg4.win 3).blk t).view.set := by
  have hi0 : (i 0).val < 8192 := (i 0).isLt
  have hi1 : (i 1).val < 4096 := (i 1).isLt
  obtain ⟨t, q0, q1⟩ := blockOnto4 ⟨(i 0).val / 1024, by omega⟩ ⟨(i 1).val / 2048, by omega⟩
  have q0' : win4_3.index t (0 : Fin 2) = (i 0).val / 1024 := q0
  have q1' : win4_3.index t (1 : Fin 2) = (i 1).val / 2048 := q1
  refine ⟨t, flush4_3 t, ?_⟩
  rw [inBlock4]
  intro a
  match a with
  | ⟨0, _⟩ =>
    show win4_3.index t (0 : Fin 2) * 1024 ≤ (i 0).val ∧ (i 0).val < win4_3.index t (0 : Fin 2) * 1024 + 1024
    omega
  | ⟨1, _⟩ =>
    show win4_3.index t (1 : Fin 2) * 2048 ≤ (i 1).val ∧ (i 1).val < win4_3.index t (1 : Fin 2) * 2048 + 2048
    omega

/-- The launch leaves the whole score in its output array. -/
theorem score4 (c : Dev nD) :
    (dat4 (F := Ideal) V c).arrAt 3 cfg4.N
      = score (M := 8192) (K := 128) (N := 4096) (V c main_v122) (V c main_arg22) (V c main_v154) :=
  (dat4 (F := Ideal) V c).arrAt_eq_of_cover 3
    (score (M := 8192) (K := 128) (N := 4096) (V c main_v122) (V c main_arg22) (V c main_v154))
    (fun t _ => written4 V c t) tiled4

end Cert.KernelIdeal.Tiles

end
-- ==== Proof.Tiles.lean ====
/-
  What each launch leaves in its output array, as one function of the arrays it found.

  A projection launch cuts the left operand into blocks of 1024 rows; grid point t multiplies block t by the whole
  right operand and writes block t of the output.  Row i of a product reads row i of the left operand only, so the
  blocks together are the one whole product.

  A score launch cuts a into blocks of 1024 rows and b into blocks of 2048 rows; grid point (s, t) forms
  (a_s · q) · b_tᵀ and writes tile (s, t) of the output.  Entry (i, n) of the score reads row i of a and row n of b
  only, so the tiles together are the one whole score.

  One module per launch proves its statement; this module gathers the five:
    proj0, proj1, proj2 : the three projection launches leave  feature · W,
    score3, score4      : the two score launches leave  (a · q) · bᵀ.
-/
import proofs.«135166_j35519379538608_1_alg».proof.Proof.Tiles0
import proofs.«135166_j35519379538608_1_alg».proof.Proof.Tiles1
import proofs.«135166_j35519379538608_1_alg».proof.Proof.Tiles2
import proofs.«135166_j35519379538608_1_alg».proof.Proof.Tiles3
import proofs.«135166_j35519379538608_1_alg».proof.Proof.Tiles4
-- ==== Proof.Glue.lean ====
/-
  The dense part between the projections and the scores, as functions of whole arrays.

  * A sparse matrix in coordinate form (row index, column index, value per edge) times a dense matrix x:
    for every edge e the row  val e · x[col e]  is added into row  row e  of a zero array
    (a negative column index is first wrapped once by the number of rows of x).
  * The rectifier  max(·, 0).
  * A linear layer on the concatenation [h | x], followed by normalisation over the batch axis
    (mean and biased variance over all rows, shift 1e-5 under the inverse square root), scale, shift and rectifier.

  Both programs spell these with the same host operations; they are kept here as named functions so that the two
  sides can be compared without ever opening them.
-/
import proofs.«135166_j35519379538608_1_alg».proof.KernelIdeal

noncomputable section

namespace Cert.KernelIdeal.Glue

open Idealize.ShloMosaic Cert.KernelIdeal

variable {F : FTy → Type} [FloatOps F] [Cert.KernelIdeal.Facts]
open Cert.KernelIdeal.Facts₀ Cert.KernelIdeal.Facts

/-- max(·, 0) on 8192×256. -/
def reluA (x : FVec F S8192x256 .f32) : FVec F S8192x256 .f32 :=
  maximumf x (broadcastInDim S8192x256 ![] bcast_S_S8192x256 (constant S_ .f32 0x00000000#32))

/-- max(·, 0) on 4096×256. -/
def reluB (x : FVec F S4096x256 .f32) : FVec F S4096x256 .f32 :=
  maximumf x (broadcastInDim S4096x256 ![] bcast_S_S4096x256 (constant S_ .f32 0x00000000#32))

/-- max(·, 0) on 8192×128. -/
def reluC (x : FVec F S8192x128 .f32) : FVec F S8192x128 .f32 :=
  maximumf x (broadcastInDim S8192x128 ![] bcast_S_S8192x128 (constant S_ .f32 0x00000000#32))

/-- max(·, 0) on 4096×128. -/
def reluD (x : FVec F S4096x128 .f32) : FVec F S4096x128 .f32 :=
  maximumf x (broadcastInDim S4096x128 ![] bcast_S_S4096x128 (constant S_ .f32 0x00000000#32))

/-- A column index below zero is wrapped once by `n` (262144 edges). -/
def wrapE (n : BitVec 32) (cols : IVec S262144 32) : IVec S262144 32 :=
  select (cmpi .slt cols (broadcastInDim S262144 ![] bcast_S_S262144 (constantI S_ 32 0#32)))
    (addi cols (broadcastInDim S262144 ![] bcast_S_S262144 (constantI S_ 32 n))) cols

/-- The same for 131072 edges. -/
def wrapT (n : BitVec 32) (cols : IVec S131072 32) : IVec S131072 32 :=
  select (cmpi .slt cols (broadcastInDim S131072 ![] bcast_S_S131072 (constantI S_ 32 0#32)))
    (addi cols (broadcastInDim S131072 ![] bcast_S_S131072 (constantI S_ 32 n))) cols

/-- 262144 edges, x : 8192×256, result 8192×256. -/
def spmmQ (x : FVec F S8192x256 .f32) (cols rows : IVec S262144 32) (vals : FVec F S262144 .f32) : FVec F S8192x256 .f32 :=
  Host.scatterAdd scatter_S8192x256_S262144x1_S262144x256_1_0_0_1
    (broadcastInDim S8192x256 ![] bcast_S_S8192x256 (constant S_ .f32 0x00000000#32))
    (broadcastInDim S262144x1 ![0] bcast_S262144_S262144x1_0 rows)
    (mulf (broadcastInDim S262144x256 ![0, 1] bcast_S262144x1_S262144x256_0_1 (broadcastInDim S262144x1 ![0] bcast_S262144_S262144x1_0 vals))
      (Host.gather gather_S8192x256_S262144x1_S262144x256_1_0_n_n_0_1_1256 x
        (broadcastInDim S262144x1 ![0] bcast_S262144_S262144x1_0 (wrapE 8192#32 cols))))

/-- 131072 edges, x : 4096×256, result 8192×256. -/
def spmmT (x : FVec F S4096x256 .f32) (cols rows : IVec S131072 32) (vals : FVec F S131072 .f32) : FVec F S8192x256 .f32 :=
  Host.scatterAdd scatter_S8192x256_S131072x1_S131072x256_1_0_0_1
    (broadcastInDim S8192x256 ![] bcast_S_S8192x256 (constant S_ .f32 0x00000000#32))
    (broadcastInDim S131072x1 ![0] bcast_S131072_S131072x1_0 rows)
    (mulf (broadcastInDim S131072x256 ![0, 1] bcast_S131072x1_S131072x256_0_1 (broadcastInDim S131072x1 ![0] bcast_S131072_S131072x1_0 vals))
      (Host.gather gather_S4096x256_S131072x1_S131072x256_1_0_n_n_0_1_1256 x
        (broadcastInDim S131072x1 ![0] bcast_S131072_S131072x1_0 (wrapT 4096#32 cols))))

/-- 131072 edges, x : 8192×256, result 4096×256. -/
def spmmI (x : FVec F S8192x256 .f32) (cols rows : IVec S131072 32) (vals : FVec F S131072 .f32) : FVec F S4096x256 .f32 :=
  Host.scatterAdd scatter_S4096x256_S131072x1_S131072x256_1_0_0_1
    (broadcastInDim S4096x256 ![] bcast_S_S4096x256 (constant S_ .f32 0x00000000#32))
    (broadcastInDim S131072x1 ![0] bcast_S131072_S131072x1_0 rows)
    (mulf (broadcastInDim S131072x256 ![0, 1] bcast_S131072x1_S131072x256_0_1 (broadcastInDim S131072x1 ![0] bcast_S131072_S131072x1_0 vals))
      (Host.gather gather_S8192x256_S131072x1_S131072x256_1_0_n_n_0_1_1256 x
        (broadcastInDim S131072x1 ![0] bcast_S131072_S131072x1_0 (wrapT 8192#32 cols))))

/-- One entry per column spread over 8192 rows. -/
def rowsA (v : FVec F S128 .f32) : FVec F S8192x128 .f32 :=
  broadcastInDim S8192x128 ![0, 1] bcast_S1x128_S8192x128_0_1 (broadcastInDim S1x128 ![1] bcast_S128_S1x128_1 v)

/-- One entry per column spread over 4096 rows. -/
def rowsB (v : FVec F S128 .f32) : FVec F S4096x128 .f32 :=
  broadcastInDim S4096x128 ![0, 1] bcast_S1x128_S4096x128_0_1 (broadcastInDim S1x128 ![1] bcast_S128_S1x128_1 v)

/-- The linear layer on [h | x], 8192 rows. -/
def linA (h x : FVec F S8192x256 .f32) (w : FVec F S128x512 .f32) (b : FVec F S128 .f32) : FVec F S8192x128 .f32 :=
  addf (Host.dotGeneral dot_S8192x512_S512x128_S8192x128_1_0_0_1_n_n none
      (concatenate S8192x512 1 [⟨S8192x256, h⟩, ⟨S8192x256, x⟩] concatenates_S8192x256_S8192x256_S8192x512_d1)
      (transpose S512x128 [1, 0] w transposes_S128x512_S512x128_1_0))
    (rowsA b)

/-- The linear layer on [h | x], 4096 rows. -/
def linB (h x : FVec F S4096x256 .f32) (w : FVec F S128x512 .f32) (b : FVec F S128 .f32) : FVec F S4096x128 .f32 :=
  addf (Host.dotGeneral dot_S4096x512_S512x128_S4096x128_1_0_0_1_n_n none
      (concatenate S4096x512 1 [⟨S4096x256, h⟩, ⟨S4096x256, x⟩] concatenates_S4096x256_S4096x256_S4096x512_d1)
      (transpose S512x128 [1, 0] w transposes_S128x512_S512x128_1_0))
    (rowsB b)

/-- The column means of an 8192-row array. -/
def meanA (y : FVec F S8192x128 .f32) : FVec F S128 .f32 :=
  Host.divf (Host.reduceAdd y (constant S_ .f32 0x00000000#32) reducesTo_S8192x128_S128_d0 h_S_)
    (broadcastInDim S128 ![] bcast_S_S128 (constant S_ .f32 0x46000000#32))

/-- The column means of a 4096-row array. -/
def meanB (y : FVec F S4096x128 .f32) : FVec F S128 .f32 :=
  Host.divf (Host.reduceAdd y (constant S_ .f32 0x00000000#32) reducesTo_S4096x128_S128_d0 h_S_)
    (broadcastInDim S128 ![] bcast_S_S128 (constant S_ .f32 0x45800000#32))

/-- Normalisation over the batch axis, scale, shift and rectifier, 8192 rows. -/
def normA (y : FVec F S8192x128 .f32) (g beta : FVec F S128 .f32) : FVec F S8192x128 .f32 :=
  reluC (addf (mulf (mulf (subf y (rowsA (meanA y)))
      (rowsA (Host.rsqrt (addf (meanA (mulf (subf y (rowsA (meanA y))) (subf y (rowsA (meanA y)))))
        (broadcastInDim S128 ![] bcast_S_S128 (constant S_ .f32 0x3727C5AC#32))))))
    (rowsA g)) (rowsA beta))

/-- Normalisation over the batch axis, scale, shift and rectifier, 4096 rows. -/
def normB (y : FVec F S4096x128 .f32) (g beta : FVec F S128 .f32) : FVec F S4096x128 .f32 :=
  reluD (addf (mulf (mulf (subf y (rowsB (meanB y)))
      (rowsB (Host.rsqrt (addf (meanB (mulf (subf y (rowsB (meanB y))) (subf y (rowsB (meanB y)))))
        (broadcastInDim S128 ![] bcast_S_S128 (constant S_ .f32 0x3727C5AC#32))))))
    (rowsB g)) (rowsB beta))

/-- The embedding of the first node kind: its projected neighbours aggregated, rectified, joined with its own
    features, then the normalised linear layer. -/
def embedQ (fiw xq : FVec F S8192x256 .f32) (src dst : IVec S262144 32) (val : FVec F S262144 .f32)
    (w : FVec F S128x512 .f32) (b g beta : FVec F S128 .f32) : FVec F S8192x128 .f32 :=
  normA (linA (reluA (spmmQ fiw dst src val)) xq w b) g beta

/-- The embedding of the second node kind: two aggregations added, rectified, joined, normalised linear layer. -/
def embedI (fqw : FVec F S8192x256 .f32) (ftw : FVec F S4096x256 .f32) (xi : FVec F S8192x256 .f32)
    (qsrc qdst : IVec S262144 32) (qval : FVec F S262144 .f32) (tsrc tdst : IVec S131072 32) (tval : FVec F S131072 .f32)
    (w : FVec F S128x512 .f32) (b g beta : FVec F S128 .f32) : FVec F S8192x128 .f32 :=
  normA (linA (reluA (addf (spmmQ fqw qsrc qdst qval) (spmmT ftw tdst tsrc tval))) xi w b) g beta

/-- The embedding of the third node kind. -/
def embedT (fiw : FVec F S8192x256 .f32) (xt : FVec F S4096x256 .f32) (tsrc tdst : IVec S131072 32) (tval : FVec F S131072 .f32)
    (w : FVec F S128x512 .f32) (b g beta : FVec F S128 .f32) : FVec F S4096x128 .f32 :=
  normB (linB (reluB (spmmI fiw tsrc tdst tval)) xt w b) g beta

end Cert.KernelIdeal.Glue

end
-- ==== Proof.GlueRun.lean ====
/-
  The stretch of host operations between the projections and the scores, read back.

  From any contents W of the buffers, after the stretch the three embeddings sit in their buffers as the named
  functions of the projections and of the argument arrays as W holds them, and the stretch writes no argument.
-/
import proofs.«135166_j35519379538608_1_alg».proof.Proof.Gen.KernelIdeal.Launch
import proofs.«135166_j35519379538608_1_alg».proof.Proof.Glue
import Idealize.ShloMosaic.Lib.StableHlo.Run

noncomputable section

namespace Cert.KernelIdeal.GlueRun

open Idealize.ShloMosaic Idealize.ShloMosaic.TcCoe Idealize.ShloMosaic.StableHlo Idealize.SL.Sem
open Cert.KernelIdeal Cert.KernelIdeal.Gen

variable {F : FTy → Type} [FloatOps F]

/-- The buffers after the whole stretch, from contents `W`. -/
abbrev line (W : Valuation τ sig (Elt F)) : Valuation τ sig (Elt F) :=
  StableHlo.after hostOps3_11 (StableHlo.after hostOps3_10 (StableHlo.after hostOps3_9 (StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (W))))))))))))

variable (W : Valuation τ sig (Elt F))

set_option maxRecDepth 16384 in
set_option maxHeartbeats 40000000 in
/-- The first embedding. -/
theorem embedQ_eq : line W (Proc.devRef .tc main_v90)
    = Glue.embedQ (W (Proc.devRef .tc main_v0)) (W (Proc.devRef .tc main_arg0)) (W (Proc.devRef .tc main_arg3)) (W (Proc.devRef .tc main_arg4)) (W (Proc.devRef .tc main_arg5))
        (W (Proc.devRef .tc main_arg10)) (W (Proc.devRef .tc main_arg11)) (W (Proc.devRef .tc main_arg12)) (W (Proc.devRef .tc main_arg13)) := by
  after_results_simp
  rfl

set_option maxRecDepth 16384 in
set_option maxHeartbeats 40000000 in
/-- The second embedding. -/
theorem embedI_eq : line W (Proc.devRef .tc main_v122)
    = Glue.embedI (W (Proc.devRef .tc main_v1)) (W (Proc.devRef .tc main_v2)) (W (Proc.devRef .tc main_arg1)) (W (Proc.devRef .tc main_arg3)) (W (Proc.devRef .tc main_arg4)) (W (Proc.devRef .tc main_arg5))
        (W (Proc.devRef .tc main_arg6)) (W (Proc.devRef .tc main_arg7)) (W (Proc.devRef .tc main_arg8))
        (W (Proc.devRef .tc main_arg14)) (W (Proc.devRef .tc main_arg15)) (W (Proc.devRef .tc main_arg16)) (W (Proc.devRef .tc main_arg17)) := by
  after_results_simp
  rfl

set_option maxRecDepth 16384 in
set_option maxHeartbeats 40000000 in
/-- The third embedding. -/
theorem embedT_eq : line W (Proc.devRef .tc main_v154)
    = Glue.embedT (W (Proc.devRef .tc main_v0)) (W (Proc.devRef .tc main_arg2)) (W (Proc.devRef .tc main_arg6)) (W (Proc.devRef .tc main_arg7)) (W (Proc.devRef .tc main_arg8))
        (W (Proc.devRef .tc main_arg18)) (W (Proc.devRef .tc main_arg19)) (W (Proc.devRef .tc main_arg20)) (W (Proc.devRef .tc main_arg21)) := by
  after_results_simp
  rfl

set_option maxRecDepth 16384 in
set_option maxHeartbeats 40000000 in
/-- The stretch leaves the score matrix's parameter where it was. -/
theorem q_eq : line W (Proc.devRef .tc main_arg22) = (W (Proc.devRef .tc main_arg22)) := by
  after_results_simp

end Cert.KernelIdeal.GlueRun

end
-- ==== Proof.Spec.lean ====
/-
  The two results as functions of the twenty-three argument arrays, over the extended reals.

  With  P_x = x · W  for each of the three feature arrays, the three embeddings are the named dense functions of
  the projections, the edge lists and the layer parameters, and the results are the bilinear scores
      (embed_q · Q) · embed_iᵀ   and   (embed_i · Q) · embed_tᵀ.
  Both programs compute exactly this: one with the products and scores taken tile by tile, the other whole.
-/
import proofs.«135166_j35519379538608_1_alg».proof.Proof.Glue
import proofs.«135166_j35519379538608_1_alg».proof.Proof.LibPlainDot
import proofs.«135166_j35519379538608_1_alg».proof.Proof.LibBilinear

noncomputable section

namespace Cert.KernelIdeal.Spec

open Idealize.ShloMosaic Cert.KernelIdeal Cert.Lib.PlainDot Cert.Lib.Bilinear

variable [Cert.KernelIdeal.Facts]

/-- The first embedding from the arguments. -/
def embQ (a0 : FVec Ideal S8192x256 .f32) (a1 : FVec Ideal S8192x256 .f32) (a2 : FVec Ideal S4096x256 .f32) (a3 : IVec S262144 32) (a4 : IVec S262144 32) (a5 : FVec Ideal S262144 .f32) (a6 : IVec S131072 32) (a7 : IVec S131072 32) (a8 : FVec Ideal S131072 .f32) (a9 : FVec Ideal S256x256 .f32) (a10 : FVec Ideal S128x512 .f32) (a11 : FVec Ideal S128 .f32) (a12 : FVec Ideal S128 .f32) (a13 : FVec Ideal S128 .f32) (a14 : FVec Ideal S128x512 .f32) (a15 : FVec Ideal S128 .f32) (a16 : FVec Ideal S128 .f32) (a17 : FVec Ideal S128 .f32) (a18 : FVec Ideal S128x512 .f32) (a19 : FVec Ideal S128 .f32) (a20 : FVec Ideal S128 .f32) (a21 : FVec Ideal S128 .f32) (a22 : FVec Ideal S128x128 .f32) : FVec Ideal S8192x128 .f32 :=
  Glue.embedQ (F := Ideal) (mm (M := 8192) (K := 256) (N := 256) a1 a9) a0 a3 a4 a5 a10 a11 a12 a13

/-- The second embedding from the arguments. -/
def embI (a0 : FVec Ideal S8192x256 .f32) (a1 : FVec Ideal S8192x256 .f32) (a2 : FVec Ideal S4096x256 .f32) (a3 : IVec S262144 32) (a4 : IVec S262144 32) (a5 : FVec Ideal S262144 .f32) (a6 : IVec S131072 32) (a7 : IVec S131072 32) (a8 : FVec Ideal S131072 .f32) (a9 : FVec Ideal S256x256 .f32) (a10 : FVec Ideal S128x512 .f32) (a11 : FVec Ideal S128 .f32) (a12 : FVec Ideal S128 .f32) (a13 : FVec Ideal S128 .f32) (a14 : FVec Ideal S128x512 .f32) (a15 : FVec Ideal S128 .f32) (a16 : FVec Ideal S128 .f32) (a17 : FVec Ideal S128 .f32) (a18 : FVec Ideal S128x512 .f32) (a19 : FVec Ideal S128 .f32) (a20 : FVec Ideal S128 .f32) (a21 : FVec Ideal S128 .f32) (a22 : FVec Ideal S128x128 .f32) : FVec Ideal S8192x128 .f32 :=
  Glue.embedI (F := Ideal) (mm (M := 8192) (K := 256) (N := 256) a0 a9) (mm (M := 4096) (K := 256) (N := 256) a2 a9) a1 a3 a4 a5 a6 a7 a8 a14 a15 a16 a17

/-- The third embedding from the arguments. -/
def embT (a0 : FVec Ideal S8192x256 .f32) (a1 : FVec Ideal S8192x256 .f32) (a2 : FVec Ideal S4096x256 .f32) (a3 : IVec S262144 32) (a4 : IVec S262144 32) (a5 : FVec Ideal S262144 .f32) (a6 : IVec S131072 32) (a7 : IVec S131072 32) (a8 : FVec Ideal S131072 .f32) (a9 : FVec Ideal S256x256 .f32) (a10 : FVec Ideal S128x512 .f32) (a11 : FVec Ideal S128 .f32) (a12 : FVec Ideal S128 .f32) (a13 : FVec Ideal S128 .f32) (a14 : FVec Ideal S128x512 .f32) (a15 : FVec Ideal S128 .f32) (a16 : FVec Ideal S128 .f32) (a17 : FVec Ideal S128 .f32) (a18 : FVec Ideal S128x512 .f32) (a19 : FVec Ideal S128 .f32) (a20 : FVec Ideal S128 .f32) (a21 : FVec Ideal S128 .f32) (a22 : FVec Ideal S128x128 .f32) : FVec Ideal S4096x128 .f32 :=
  Glue.embedT (F := Ideal) (mm (M := 8192) (K := 256) (N := 256) a1 a9) a2 a6 a7 a8 a18 a19 a20 a21

/-- The first result. -/
def out0 (a0 : FVec Ideal S8192x256 .f32) (a1 : FVec Ideal S8192x256 .f32) (a2 : FVec Ideal S4096x256 .f32) (a3 : IVec S262144 32) (a4 : IVec S262144 32) (a5 : FVec Ideal S262144 .f32) (a6 : IVec S131072 32) (a7 : IVec S131072 32) (a8 : FVec Ideal S131072 .f32) (a9 : FVec Ideal S256x256 .f32) (a10 : FVec Ideal S128x512 .f32) (a11 : FVec Ideal S128 .f32) (a12 : FVec Ideal S128 .f32) (a13 : FVec Ideal S128 .f32) (a14 : FVec Ideal S128x512 .f32) (a15 : FVec Ideal S128 .f32) (a16 : FVec Ideal S128 .f32) (a17 : FVec Ideal S128 .f32) (a18 : FVec Ideal S128x512 .f32) (a19 : FVec Ideal S128 .f32) (a20 : FVec Ideal S128 .f32) (a21 : FVec Ideal S128 .f32) (a22 : FVec Ideal S128x128 .f32) : FVec Ideal S8192x8192 .f32 :=
  score (M := 8192) (K := 128) (N := 8192)
    (embQ a0 a1 a2 a3 a4 a5 a6 a7 a8 a9 a10 a11 a12 a13 a14 a15 a16 a17 a18 a19 a20 a21 a22) a22
    (embI a0 a1 a2 a3 a4 a5 a6 a7 a8 a9 a10 a11 a12 a13 a14 a15 a16 a17 a18 a19 a20 a21 a22)

/-- The second result. -/
def out1 (a0 : FVec Ideal S8192x256 .f32) (a1 : FVec Ideal S8192x256 .f32) (a2 : FVec Ideal S4096x256 .f32) (a3 : IVec S262144 32) (a4 : IVec S262144 32) (a5 : FVec Ideal S262144 .f32) (a6 : IVec S131072 32) (a7 : IVec S131072 32) (a8 : FVec Ideal S131072 .f32) (a9 : FVec Ideal S256x256 .f32) (a10 : FVec Ideal S128x512 .f32) (a11 : FVec Ideal S128 .f32) (a12 : FVec Ideal S128 .f32) (a13 : FVec Ideal S128 .f32) (a14 : FVec Ideal S128x512 .f32) (a15 : FVec Ideal S128 .f32) (a16 : FVec Ideal S128 .f32) (a17 : FVec Ideal S128 .f32) (a18 : FVec Ideal S128x512 .f32) (a19 : FVec Ideal S128 .f32) (a20 : FVec Ideal S128 .f32) (a21 : FVec Ideal S128 .f32) (a22 : FVec Ideal S128x128 .f32) : FVec Ideal S8192x4096 .f32 :=
  score (M := 8192) (K := 128) (N := 4096)
    (embI a0 a1 a2 a3 a4 a5 a6 a7 a8 a9 a10 a11 a12 a13 a14 a15 a16 a17 a18 a19 a20 a21 a22) a22
    (embT a0 a1 a2 a3 a4 a5 a6 a7 a8 a9 a10 a11 a12 a13 a14 a15 a16 a17 a18 a19 a20 a21 a22)

end Cert.KernelIdeal.Spec

end
-- ==== Proof.Chain.lean ====
/-
  The buffers at the segment boundaries, read back to the launch memory.

  A launch leaves its input arrays as it found them and every buffer that is not one of its arrays in place, and
  its output array at the whole product (or score) of the arrays it found; the host stretch leaves the three
  embeddings as the named functions of what it found.  Composing these from the last boundary back to the launch
  memory gives each result array as the specification's function of the twenty-three arguments.
-/
import proofs.«135166_j35519379538608_1_alg».proof.Proof.Gen.KernelIdeal.Frame
import proofs.«135166_j35519379538608_1_alg».proof.Proof.Tiles
import proofs.«135166_j35519379538608_1_alg».proof.Proof.GlueRun
import proofs.«135166_j35519379538608_1_alg».proof.Proof.Spec

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen Cert.Lib.PlainDot Cert.Lib.Bilinear

variable (m : (ℓ : Loc nD τ sig) → Buf (Elt Ideal) ℓ) (ρ : Dev nD → PrngReg)

/-! ## Through the three projection launches -/

/-- A buffer that is no array of the three projection launches is at its launch contents after them. -/
theorem W3_other (c : Dev nD) (b : Ref sig .tc) (h0 : ∀ w, Pipeline.arrRef spec0 w ≠ b) (h1 : ∀ w, Pipeline.arrRef spec1 w ≠ b)
    (h2 : ∀ w, Pipeline.arrRef spec2 w ≠ b) : W3 m ρ c (Proc.devRef .tc b) = m ((c : Thread nD τ).loc b) :=
  calc W3 m ρ c (Proc.devRef .tc b)
    _ = W2 m ρ c (Proc.devRef .tc b) := W3_of_ne m ρ c b h2
    _ = W1 m ρ c (Proc.devRef .tc b) := W2_of_ne m ρ c b h1
    _ = W0 m ρ c (Proc.devRef .tc b) := W1_of_ne m ρ c b h0
    _ = m ((c : Thread nD τ).loc b) := rfl

/-- The shared right operand W is an input of all three. -/
theorem W1_w (c : Dev nD) : W1 m ρ c (Proc.devRef .tc main_arg9) = m ((c : Thread nD τ).loc main_arg9) :=
  calc W1 m ρ c (Proc.devRef .tc main_arg9)
    _ = W0 m ρ c (Proc.devRef .tc main_arg9) := (W1_arr m ρ c 1).trans (((dat0 (V0 m ρ) c).arrAt_in 1 rfl _).trans (A_eq0 (V0 m ρ) c 1))
    _ = m ((c : Thread nD τ).loc main_arg9) := rfl
theorem W2_w (c : Dev nD) : W2 m ρ c (Proc.devRef .tc main_arg9) = m ((c : Thread nD τ).loc main_arg9) :=
  calc W2 m ρ c (Proc.devRef .tc main_arg9)
    _ = W1 m ρ c (Proc.devRef .tc main_arg9) := (W2_arr m ρ c 1).trans (((dat1 (V1 m ρ) c).arrAt_in 1 rfl _).trans (A_eq1 (V1 m ρ) c 1))
    _ = m ((c : Thread nD τ).loc main_arg9) := W1_w m ρ c
theorem W3_w (c : Dev nD) : W3 m ρ c (Proc.devRef .tc main_arg9) = m ((c : Thread nD τ).loc main_arg9) :=
  calc W3 m ρ c (Proc.devRef .tc main_arg9)
    _ = W2 m ρ c (Proc.devRef .tc main_arg9) := (W3_arr m ρ c 1).trans (((dat2 (V2 m ρ) c).arrAt_in 1 rfl _).trans (A_eq2 (V2 m ρ) c 1))
    _ = m ((c : Thread nD τ).loc main_arg9) := W2_w m ρ c

/-- Each feature array is the left input of one projection launch and no array of the other two. -/
theorem W1_x1 (c : Dev nD) : W1 m ρ c (Proc.devRef .tc main_arg1) = m ((c : Thread nD τ).loc main_arg1) :=
  calc W1 m ρ c (Proc.devRef .tc main_arg1)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_x1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_x1 m ρ c
theorem W1_x0 (c : Dev nD) : W1 m ρ c (Proc.devRef .tc main_arg0) = m ((c : Thread nD τ).loc main_arg0) :=
  (W1_of_ne m ρ c main_arg0 (by decide)).trans rfl
theorem W2_x0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = m ((c : Thread nD τ).loc main_arg0) := W1_x0 m ρ c
theorem W3_x0 (c : Dev nD) : W3 m ρ c (Proc.devRef .tc main_arg0) = m ((c : Thread nD τ).loc main_arg0) :=
  (W3_of_ne m ρ c main_arg0 (by decide)).trans (W2_x0 m ρ c)
theorem W2_x2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W3_x2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 0).trans (((dat2 (V2 m ρ) c).arrAt_in 0 rfl _).trans (A_eq2 (V2 m ρ) c 0))
    _ = m ((c : Thread nD τ).loc main_arg2) := W2_x2 m ρ c

/-- The three projections after the three launches. -/
theorem W3_p1 (c : Dev nD) : W3 m ρ c (Proc.devRef .tc main_v0) = mm (M := 8192) (K := 256) (N := 256) (m ((c : Thread nD τ).loc main_arg1)) (m ((c : Thread nD τ).loc main_arg9)) :=
  calc W3 m ρ c (Proc.devRef .tc main_v0)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 2 cfg0.N := W1_arr m ρ c 2
    _ = mm (M := 8192) (K := 256) (N := 256) (m ((c : Thread nD τ).loc main_arg1)) (m ((c : Thread nD τ).loc main_arg9)) := Tiles.proj0 (V0 m ρ) c
theorem W3_p0 (c : Dev nD) : W3 m ρ c (Proc.devRef .tc main_v1) = mm (M := 8192) (K := 256) (N := 256) (m ((c : Thread nD τ).loc main_arg0)) (m ((c : Thread nD τ).loc main_arg9)) :=
  calc W3 m ρ c (Proc.devRef .tc main_v1)
    _ = W2 m ρ c (Proc.devRef .tc main_v1) := W3_of_ne m ρ c main_v1 (by decide)
    _ = (dat1 (V1 m ρ) c).arrAt 2 cfg1.N := W2_arr m ρ c 2
    _ = mm (M := 8192) (K := 256) (N := 256) (V1 m ρ c main_arg0) (V1 m ρ c main_arg9) := Tiles.proj1 (V1 m ρ) c
    _ = mm (M := 8192) (K := 256) (N := 256) (m ((c : Thread nD τ).loc main_arg0)) (m ((c : Thread nD τ).loc main_arg9)) := by
        rw [show V1 m ρ c main_arg0 = m ((c : Thread nD τ).loc main_arg0) from W1_x0 m ρ c, show V1 m ρ c main_arg9 = m ((c : Thread nD τ).loc main_arg9) from W1_w m ρ c]
theorem W3_p2 (c : Dev nD) : W3 m ρ c (Proc.devRef .tc main_v2) = mm (M := 4096) (K := 256) (N := 256) (m ((c : Thread nD τ).loc main_arg2)) (m ((c : Thread nD τ).loc main_arg9)) :=
  calc W3 m ρ c (Proc.devRef .tc main_v2)
    _ = (dat2 (V2 m ρ) c).arrAt 2 cfg2.N := W3_arr m ρ c 2
    _ = mm (M := 4096) (K := 256) (N := 256) (V2 m ρ c main_arg2) (V2 m ρ c main_arg9) := Tiles.proj2 (V2 m ρ) c
    _ = mm (M := 4096) (K := 256) (N := 256) (m ((c : Thread nD τ).loc main_arg2)) (m ((c : Thread nD τ).loc main_arg9)) := by
        rw [show V2 m ρ c main_arg2 = m ((c : Thread nD τ).loc main_arg2) from W2_x2 m ρ c, show V2 m ρ c main_arg9 = m ((c : Thread nD τ).loc main_arg9) from W2_w m ρ c]

/-! ## Through the host stretch -/

/-- The first embedding when the score launches begin. -/
theorem V15_q (c : Dev nD) : V15 m ρ c main_v90 = Spec.embQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (GlueRun.embedQ_eq (W3 m ρ c)).trans ?_
  rw [W3_p1 m ρ c, W3_x0 m ρ c,
    W3_other m ρ c main_arg3 (by decide) (by decide) (by decide),
    W3_other m ρ c main_arg4 (by decide) (by decide) (by decide),
    W3_other m ρ c main_arg5 (by decide) (by decide) (by decide),
    W3_other m ρ c main_arg10 (by decide) (by decide) (by decide),
    W3_other m ρ c main_arg11 (by decide) (by decide) (by decide),
    W3_other m ρ c main_arg12 (by decide) (by decide) (by decide),
    W3_other m ρ c main_arg13 (by decide) (by decide) (by decide)]
  rfl

/-- The second embedding when the score launches begin. -/
theorem V15_i (c : Dev nD) : V15 m ρ c main_v122 = Spec.embI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (GlueRun.embedI_eq (W3 m ρ c)).trans ?_
  rw [W3_p0 m ρ c, W3_p2 m ρ c, W3_x1 m ρ c,
    W3_other m ρ c main_arg3 (by decide) (by decide) (by decide),
    W3_other m ρ c main_arg4 (by decide) (by decide) (by decide),
    W3_other m ρ c main_arg5 (by decide) (by decide) (by decide),
    W3_other m ρ c main_arg6 (by decide) (by decide) (by decide),
    W3_other m ρ c main_arg7 (by decide) (by decide) (by decide),
    W3_other m ρ c main_arg8 (by decide) (by decide) (by decide),
    W3_other m ρ c main_arg14 (by decide) (by decide) (by decide),
    W3_other m ρ c main_arg15 (by decide) (by decide) (by decide),
    W3_other m ρ c main_arg16 (by decide) (by decide) (by decide),
    W3_other m ρ c main_arg17 (by decide) (by decide) (by decide)]
  rfl

/-- The third embedding when the score launches begin. -/
theorem V15_t (c : Dev nD) : V15 m ρ c main_v154 = Spec.embT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (GlueRun.embedT_eq (W3 m ρ c)).trans ?_
  rw [W3_p1 m ρ c, W3_x2 m ρ c,
    W3_other m ρ c main_arg6 (by decide) (by decide) (by decide),
    W3_other m ρ c main_arg7 (by decide) (by decide) (by decide),
    W3_other m ρ c main_arg8 (by decide) (by decide) (by decide),
    W3_other m ρ c main_arg18 (by decide) (by decide) (by decide),
    W3_other m ρ c main_arg19 (by decide) (by decide) (by decide),
    W3_other m ρ c main_arg20 (by decide) (by decide) (by decide),
    W3_other m ρ c main_arg21 (by decide) (by decide) (by decide)]
  rfl

/-- The score matrix's parameter when the score launches begin. -/
theorem V15_Q (c : Dev nD) : V15 m ρ c main_arg22 = m ((c : Thread nD τ).loc main_arg22) :=
  (GlueRun.q_eq (W3 m ρ c)).trans (W3_other m ρ c main_arg22 (by decide) (by decide) (by decide))

/-! ## Through the two score launches -/

/-- The first result array at the last boundary. -/
theorem out0 (c : Dev nD) : W17 m ρ c (Proc.devRef .tc main_v155) = Spec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  calc W17 m ρ c (Proc.devRef .tc main_v155)
    _ = W16 m ρ c (Proc.devRef .tc main_v155) := W17_of_ne m ρ c main_v155 (by decide)
    _ = (dat3 (V15 m ρ) c).arrAt 3 cfg3.N := W16_arr m ρ c 3
    _ = score (M := 8192) (K := 128) (N := 8192) (V15 m ρ c main_v90) (V15 m ρ c main_arg22) (V15 m ρ c main_v122) := Tiles.score3 (V15 m ρ) c
    _ = Spec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
        rw [V15_q m ρ c, V15_Q m ρ c, V15_i m ρ c]; rfl

/-- The second score launch finds the second embedding and the parameter as the first found them, and the third
    embedding untouched. -/
theorem V16_i (c : Dev nD) : V16 m ρ c main_v122 = V15 m ρ c main_v122 :=
  (W16_arr m ρ c 2).trans (((dat3 (V15 m ρ) c).arrAt_in 2 rfl _).trans (A_eq3 (V15 m ρ) c 2))
theorem V16_Q (c : Dev nD) : V16 m ρ c main_arg22 = V15 m ρ c main_arg22 :=
  (W16_arr m ρ c 1).trans (((dat3 (V15 m ρ) c).arrAt_in 1 rfl _).trans (A_eq3 (V15 m ρ) c 1))
theorem V16_t (c : Dev nD) : V16 m ρ c main_v154 = V15 m ρ c main_v154 :=
  W16_of_ne m ρ c main_v154 (by decide)

/-- The second result array at the last boundary. -/
theorem out1 (c : Dev nD) : W17 m ρ c (Proc.devRef .tc main_v156) = Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  calc W17 m ρ c (Proc.devRef .tc main_v156)
    _ = (dat4 (V16 m ρ) c).arrAt 3 cfg4.N := W17_arr m ρ c 3
    _ = score (M := 8192) (K := 128) (N := 4096) (V16 m ρ c main_v122) (V16 m ρ c main_arg22) (V16 m ρ c main_v154) := Tiles.score4 (V16 m ρ) c
    _ = Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
        rw [V16_i m ρ c, V16_Q m ρ c, V16_t m ρ c, V15_i m ρ c, V15_Q m ρ c, V15_t m ρ c]; rfl

end Cert.KernelIdeal.Chain

end
-- ==== Proof.RefValue.lean ====
/-
  The reference's two results are the specification's functions of its arguments.

  The reference forms each projection  x · W  by one product, applies the same dense operations as the other
  program to them (here recognised as the named functions, never opened), and takes each score as two products
  with the right operand transposed:  (e · Q) · fᵀ.  A product of an M×K by a K×N array is the plain sum over the
  contracted axis, and the transposed operand read at (k, n) is the operand at (n, k); so each result is the
  specification's bilinear score of the specification's embeddings.
-/
import proofs.«135166_j35519379538608_1_alg».proof.Proof.Gen.ReferenceIdeal.Run
import proofs.«135166_j35519379538608_1_alg».proof.Proof.Spec
import proofs.«135166_j35519379538608_1_alg».proof.Proof.Gen.KernelIdeal

set_option maxRecDepth 16384

noncomputable section

namespace Cert.ReferenceIdeal.RefValue

open Idealize.ShloMosaic Idealize.ShloMosaic.TcCoe Idealize.SL.Sem
open Cert.ReferenceIdeal Cert.ReferenceIdeal.Value Cert.Lib.PlainDot Cert.Lib.Bilinear

/-- Two host products with the second right operand transposed are the bilinear score (8192 columns). -/
theorem score_host0 (e : FVec Ideal S8192x128 .f32) (q : FVec Ideal S128x128 .f32) (f : FVec Ideal S8192x128 .f32)
    (h : S8192x128.Transposes [1, 0] S128x8192) :
    Host.dotGeneral (F := Ideal) dot_S8192x128_S128x8192_S8192x8192_1_0_0_1_n_n none
        (Host.dotGeneral (F := Ideal) dot_S8192x128_S128x128_S8192x128_1_0_0_1_n_n none e q) (transpose S128x8192 [1, 0] f h)
      = score (M := 8192) (K := 128) (N := 8192) e q f := by
  rw [show dot_S8192x128_S128x8192_S8192x8192_1_0_0_1_n_n = DotDims.plain 8192 128 8192 from rfl,
    show dot_S8192x128_S128x128_S8192x128_1_0_0_1_n_n = DotDims.plain 8192 128 128 from rfl,
    Cert.Lib.PlainDot.dotGeneral, Cert.Lib.PlainDot.dotGeneral, transpose_eq_tr (N := 8192) (K := 128) f h]
  rfl

/-- The same with 4096 columns. -/
theorem score_host1 (e : FVec Ideal S8192x128 .f32) (q : FVec Ideal S128x128 .f32) (f : FVec Ideal S4096x128 .f32)
    (h : S4096x128.Transposes [1, 0] S128x4096) :
    Host.dotGeneral (F := Ideal) dot_S8192x128_S128x4096_S8192x4096_1_0_0_1_n_n none
        (Host.dotGeneral (F := Ideal) dot_S8192x128_S128x128_S8192x128_1_0_0_1_n_n none e q) (transpose S128x4096 [1, 0] f h)
      = score (M := 8192) (K := 128) (N := 4096) e q f := by
  rw [show dot_S8192x128_S128x4096_S8192x4096_1_0_0_1_n_n = DotDims.plain 8192 128 4096 from rfl,
    show dot_S8192x128_S128x128_S8192x128_1_0_0_1_n_n = DotDims.plain 8192 128 128 from rfl,
    Cert.Lib.PlainDot.dotGeneral, Cert.Lib.PlainDot.dotGeneral, transpose_eq_tr (N := 4096) (K := 128) f h]
  rfl

/-- A projection product of the reference is the plain product (8192 rows). -/
theorem proj_host8 (x : FVec Ideal S8192x256 .f32) (w : FVec Ideal S256x256 .f32) :
    Host.dotGeneral (F := Ideal) dot_S8192x256_S256x256_S8192x256_1_0_0_1_n_n none x w = mm (M := 8192) (K := 256) (N := 256) x w := by
  rw [show dot_S8192x256_S256x256_S8192x256_1_0_0_1_n_n = DotDims.plain 8192 256 256 from rfl, Cert.Lib.PlainDot.dotGeneral]

/-- A projection product of the reference is the plain product (4096 rows). -/
theorem proj_host4 (x : FVec Ideal S4096x256 .f32) (w : FVec Ideal S256x256 .f32) :
    Host.dotGeneral (F := Ideal) dot_S4096x256_S256x256_S4096x256_1_0_0_1_n_n none x w = mm (M := 4096) (K := 256) (N := 256) x w := by
  rw [show dot_S4096x256_S256x256_S4096x256_1_0_0_1_n_n = DotDims.plain 4096 256 256 from rfl, Cert.Lib.PlainDot.dotGeneral]

variable (m : (ℓ : Loc nD τ sig) → Buf (Elt Ideal) ℓ)

set_option maxHeartbeats 4000000 in
/-- The first result. -/
theorem out0_eq (c : Dev nD) : res_main_v158 (F := Ideal) m c = Cert.KernelIdeal.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold res_main_v158
  refine (score_host0 _ _ _ _).trans ?_
  rw [proj_host8 (m ((c.tc : Thread nD τ).loc main_arg1)) (m ((c.tc : Thread nD τ).loc main_arg9)), proj_host8 (m ((c.tc : Thread nD τ).loc main_arg0)) (m ((c.tc : Thread nD τ).loc main_arg9)), proj_host4 (m ((c.tc : Thread nD τ).loc main_arg2)) (m ((c.tc : Thread nD τ).loc main_arg9))]
  rfl

set_option maxHeartbeats 4000000 in
/-- The second result. -/
theorem out1_eq (c : Dev nD) : res_main_v161 (F := Ideal) m c = Cert.KernelIdeal.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold res_main_v161
  refine (score_host1 _ _ _ _).trans ?_
  rw [proj_host8 (m ((c.tc : Thread nD τ).loc main_arg1)) (m ((c.tc : Thread nD τ).loc main_arg9)), proj_host8 (m ((c.tc : Thread nD τ).loc main_arg0)) (m ((c.tc : Thread nD τ).loc main_arg9)), proj_host4 (m ((c.tc : Thread nD τ).loc main_arg2)) (m ((c.tc : Thread nD τ).loc main_arg9))]
  rfl

end Cert.ReferenceIdeal.RefValue

end
-- ==== Proof.Claims.lean ====
/-
  The five claims.

  The two kernel programs' frames are the generated ones; the reference's frame is its run with the results
  dropped; the idealized kernel is the kernel's own text read over the extended reals (nothing was rewritten).
  For the value claim: the idealized kernel's run ends with each result array at the specification's function of
  the arguments (tile by tile products and scores assembled, the dense operations in between named), and the
  reference's run ends at the same function of its arguments (whole products and scores); the arguments agree.
  No law beyond the locality of a matrix product in the rows of its left operand and the columns of its right
  operand is used, so the precondition is never opened.
-/
import proofs.«135166_j35519379538608_1_alg».proof.Defs
import proofs.«135166_j35519379538608_1_alg».proof.Proof.Gen.Kernel.Frame
import proofs.«135166_j35519379538608_1_alg».proof.Proof.Gen.KernelIdeal.Frame
import proofs.«135166_j35519379538608_1_alg».proof.Proof.Gen.ReferenceIdeal.Run
import proofs.«135166_j35519379538608_1_alg».proof.Proof.Gen.Pre_finite_inputs
import proofs.«135166_j35519379538608_1_alg».proof.Proof.KernelRun
import proofs.«135166_j35519379538608_1_alg».proof.Proof.Chain
import proofs.«135166_j35519379538608_1_alg».proof.Proof.RefValue

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 4000000 in
theorem algebraic : Cert.algebraic_KernelIdeal_ReferenceIdeal := by
  intro m ρ m' ρ' _ hagree
  refine ⟨fun c => Cert.KernelIdeal.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => Cert.KernelIdeal.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · refine (θ_run Cert.KernelIdeal.defs _ _).mono (fun r h c => ?_) (Cert.KernelIdeal.KernelRun.run_all (F := Ideal) m ρ)
    exact ⟨(h c _ (Cert.KernelIdeal.Gen.mem_uc Cert.KernelIdeal.main_v155 (by decide))).trans (Cert.KernelIdeal.Chain.out0 m ρ c),
      (h c _ (Cert.KernelIdeal.Gen.mem_uc Cert.KernelIdeal.main_v156 (by decide))).trans (Cert.KernelIdeal.Chain.out1 m ρ c),
      (h c _ (Cert.KernelIdeal.Gen.mem_uc Cert.KernelIdeal.main_arg0 (by decide))).trans (Cert.KernelIdeal.Gen.W17_main_arg0 m ρ c),
      (h c _ (Cert.KernelIdeal.Gen.mem_uc Cert.KernelIdeal.main_arg1 (by decide))).trans (Cert.KernelIdeal.Gen.W17_main_arg1 m ρ c),
      (h c _ (Cert.KernelIdeal.Gen.mem_uc Cert.KernelIdeal.main_arg2 (by decide))).trans (Cert.KernelIdeal.Gen.W17_main_arg2 m ρ c),
      (h c _ (Cert.KernelIdeal.Gen.mem_uc Cert.KernelIdeal.main_arg3 (by decide))).trans (Cert.KernelIdeal.Gen.W17_main_arg3 m ρ c),
      (h c _ (Cert.KernelIdeal.Gen.mem_uc Cert.KernelIdeal.main_arg4 (by decide))).trans (Cert.KernelIdeal.Gen.W17_main_arg4 m ρ c),
      (h c _ (Cert.KernelIdeal.Gen.mem_uc Cert.KernelIdeal.main_arg5 (by decide))).trans (Cert.KernelIdeal.Gen.W17_main_arg5 m ρ c),
      (h c _ (Cert.KernelIdeal.Gen.mem_uc Cert.KernelIdeal.main_arg6 (by decide))).trans (Cert.KernelIdeal.Gen.W17_main_arg6 m ρ c),
      (h c _ (Cert.KernelIdeal.Gen.mem_uc Cert.KernelIdeal.main_arg7 (by decide))).trans (Cert.KernelIdeal.Gen.W17_main_arg7 m ρ c),
      (h c _ (Cert.KernelIdeal.Gen.mem_uc Cert.KernelIdeal.main_arg8 (by decide))).trans (Cert.KernelIdeal.Gen.W17_main_arg8 m ρ c),
      (h c _ (Cert.KernelIdeal.Gen.mem_uc Cert.KernelIdeal.main_arg9 (by decide))).trans (Cert.KernelIdeal.Gen.W17_main_arg9 m ρ c),
      (h c _ (Cert.KernelIdeal.Gen.mem_uc Cert.KernelIdeal.main_arg10 (by decide))).trans (Cert.KernelIdeal.Gen.W17_main_arg10 m ρ c),
      (h c _ (Cert.KernelIdeal.Gen.mem_uc Cert.KernelIdeal.main_arg11 (by decide))).trans (Cert.KernelIdeal.Gen.W17_main_arg11 m ρ c),
      (h c _ (Cert.KernelIdeal.Gen.mem_uc Cert.KernelIdeal.main_arg12 (by decide))).trans (Cert.KernelIdeal.Gen.W17_main_arg12 m ρ c),
      (h c _ (Cert.KernelIdeal.Gen.mem_uc Cert.KernelIdeal.main_arg13 (by decide))).trans (Cert.KernelIdeal.Gen.W17_main_arg13 m ρ c),
      (h c _ (Cert.KernelIdeal.Gen.mem_uc Cert.KernelIdeal.main_arg14 (by decide))).trans (Cert.KernelIdeal.Gen.W17_main_arg14 m ρ c),
      (h c _ (Cert.KernelIdeal.Gen.mem_uc Cert.KernelIdeal.main_arg15 (by decide))).trans (Cert.KernelIdeal.Gen.W17_main_arg15 m ρ c),
      (h c _ (Cert.KernelIdeal.Gen.mem_uc Cert.KernelIdeal.main_arg16 (by decide))).trans (Cert.KernelIdeal.Gen.W17_main_arg16 m ρ c),
      (h c _ (Cert.KernelIdeal.Gen.mem_uc Cert.KernelIdeal.main_arg17 (by decide))).trans (Cert.KernelIdeal.Gen.W17_main_arg17 m ρ c),
      (h c _ (Cert.KernelIdeal.Gen.mem_uc Cert.KernelIdeal.main_arg18 (by decide))).trans (Cert.KernelIdeal.Gen.W17_main_arg18 m ρ c),
      (h c _ (Cert.KernelIdeal.Gen.mem_uc Cert.KernelIdeal.main_arg19 (by decide))).trans (Cert.KernelIdeal.Gen.W17_main_arg19 m ρ c),
      (h c _ (Cert.KernelIdeal.Gen.mem_uc Cert.KernelIdeal.main_arg20 (by decide))).trans (Cert.KernelIdeal.Gen.W17_main_arg20 m ρ c),
      (h c _ (Cert.KernelIdeal.Gen.mem_uc Cert.KernelIdeal.main_arg21 (by decide))).trans (Cert.KernelIdeal.Gen.W17_main_arg21 m ρ c),
      (h c _ (Cert.KernelIdeal.Gen.mem_uc Cert.KernelIdeal.main_arg22 (by decide))).trans (Cert.KernelIdeal.Gen.W17_main_arg22 m ρ c)⟩
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19, h20, h21, h22⟩ := hagree c
    refine ⟨(h c).1.trans ?_, (h c).2.1.trans ?_, (h c).2.2⟩
    · rw [Cert.ReferenceIdeal.RefValue.out0_eq m' c, h0, h1, h2, h3, h4, h5, h6, h7, h8, h9, h10, h11, h12, h13, h14, h15, h16, h17, h18, h19, h20, h21, h22]
    · rw [Cert.ReferenceIdeal.RefValue.out1_eq m' c, h0, h1, h2, h3, h4, h5, h6, h7, h8, h9, h10, h11, h12, h13, h14, h15, h16, h17, h18, h19, h20, h21, h22]

end Cert.Proof.Claims

end
-- ==== Proof.lean ====
/-
  Graph message passing with three node kinds: each kind's features are projected by one shared matrix, the
  projections are aggregated along two weighted edge lists (gather a row per edge, scale, add into the target
  row), rectified, joined with the raw features, passed through a linear layer with normalisation over the batch
  axis and a rectifier, and the two results are the bilinear scores  (e_q · Q) · e_iᵀ  and  (e_i · Q) · e_tᵀ.

  One program takes the three projections and the two scores tile by tile on the accelerator (blocks of 1024 rows
  of the left operand; for the scores also blocks of 2048 rows of the right operand) with the operands narrowed to
  a shorter float format, and everything in between by whole-array operations; the other takes every product
  whole.  Over the extended reals a change of float format is the identity, an entry of a matrix product reads
  one row of the left operand and one column of the right operand, and the operations in between are the same on
  both sides; so the two programs compute the same two arrays, entry by entry.  No algebraic law beyond that
  locality is needed, and the finiteness of the inputs is never used.

  The modules: the plain product and the bilinear score index by index (LibPlainDot, LibBilinear); what each
  launch leaves in its output array (Tiles); the operations in between as named functions and their read-back
  (Glue, GlueRun); the program's run with every buffer named and the buffers followed back to the launch memory
  (KernelRun, Chain); the whole specification (Spec); the reference's results as that specification (RefValue);
  the five claims (Claims).
-/
import proofs.«135166_j35519379538608_1_alg».proof.Defs
import proofs.«135166_j35519379538608_1_alg».proof.Proof.Gen.Kernel
import proofs.«135166_j35519379538608_1_alg».proof.Proof.Gen.Kernel.Skeleton
import proofs.«135166_j35519379538608_1_alg».proof.Proof.Gen.Kernel.Launch
import proofs.«135166_j35519379538608_1_alg».proof.Proof.Gen.Kernel.Points
import proofs.«135166_j35519379538608_1_alg».proof.Proof.Gen.Kernel.Frame
import proofs.«135166_j35519379538608_1_alg».proof.Proof.Gen.KernelIdeal
import proofs.«135166_j35519379538608_1_alg».proof.Proof.Gen.KernelIdeal.Skeleton
import proofs.«135166_j35519379538608_1_alg».proof.Proof.Gen.KernelIdeal.Launch
import proofs.«135166_j35519379538608_1_alg».proof.Proof.Gen.KernelIdeal.Points
import proofs.«135166_j35519379538608_1_alg».proof.Proof.Gen.KernelIdeal.Frame
import proofs.«135166_j35519379538608_1_alg».proof.Proof.Gen.ReferenceIdeal
import proofs.«135166_j35519379538608_1_alg».proof.Proof.Gen.ReferenceIdeal.Run
import proofs.«135166_j35519379538608_1_alg».proof.Proof.Gen.Pre_finite_inputs
import proofs.«135166_j35519379538608_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
